-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S5x64x64 : Shape := ⟨3, ![5, 64, 64]⟩
abbrev S5x64 : Shape := ⟨2, ![5, 64]⟩
abbrev S320x1 : Shape := ⟨2, ![320, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S320x1 : S_.BroadcastsInDim S320x1 (![] : Fin 0 → Fin S320x1.rank)
  reducesTo_S320x1_S_d0_1 : S320x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S320x1 .f32) (main_arg6 : FVec F S1 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S320x1 .f32 := Host.absf main_arg5
  let main_cst_6 : FVec F S_ .f32 := constant S_ .f32 0x7F800000#32
  let main_v20 : FVec F S320x1 .f32 := broadcastInDim S320x1 ![] bcast_S_S320x1 main_cst_6
  let main_v21 : IVec S320x1 1 := cmpf .olt main_v19 main_v20
  let main_c_7 : IVec S_ 1 := constantI S_ 1 1#1
  let main_v22 : IVec S_ 1 := (fun x v => Host.reduce IntOp.andi x v reducesTo_S320x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S5x64x64 .f32) (main_arg3 : FVec F S5x64 .f32) (main_arg4 : FVec F S5x64x64 .f32) (main_arg5 : FVec F S320x1 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg2
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64 .f32 := Host.absf main_arg3
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S5x64x64 .f32 := Host.absf main_arg4
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S5x64x64 : Shape := ⟨3, ![5, 64, 64]⟩
abbrev S5x64 : Shape := ⟨2, ![5, 64]⟩
abbrev S320x1 : Shape := ⟨2, ![320, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S4000x64 : Shape := ⟨2, ![4000, 64]⟩
abbrev S4000x1 : Shape := ⟨2, ![4000, 1]⟩
abbrev S20000x320 : Shape := ⟨2, ![20000, 320]⟩
abbrev S20000x1 : Shape := ⟨2, ![20000, 1]⟩
abbrev S4000x320 : Shape := ⟨2, ![4000, 320]⟩
abbrev S1x1 : Shape := ⟨2, ![1, 1]⟩

abbrev nBuf : Space → Nat
  | .hbm => 128
  | .vmem => 61
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S5x64x64, .f32⟩
  | .hbm, ⟨3, _⟩ => ⟨S5x64, .f32⟩
  | .hbm, ⟨4, _⟩ => ⟨S5x64x64, .f32⟩
  | .hbm, ⟨5, _⟩ => ⟨S320x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000x1, .f32⟩
  | .hbm, ⟨13, _⟩ => ⟨S_, .f32⟩
  | .hbm, ⟨14, _⟩ => ⟨S100000x1, .f32⟩
  | .hbm, ⟨15, _⟩ => ⟨S1600000x1, .i32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x64, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .bf16⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S1x64x64, .f32⟩
  | .hbm, ⟨36, _⟩ => ⟨S64x64, .f32⟩
  | .hbm, ⟨37, _⟩ => ⟨S1x64, .f32⟩
  | .hbm, ⟨38, _⟩ => ⟨S64, .f32⟩
  | .hbm, ⟨39, _⟩ => ⟨S1x64x64, .f32⟩
  | .hbm, ⟨40, _⟩ => ⟨S64x64, .f32⟩
  | .hbm, ⟨41, _⟩ => ⟨S100000x64, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .bf16⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S1x64x64, .f32⟩
  | .hbm, ⟨61, _⟩ => ⟨S64x64, .f32⟩
  | .hbm, ⟨62, _⟩ => ⟨S100000x64, .bf16⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .bf16⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S1x64x64, .f32⟩
  | .hbm, ⟨78, _⟩ => ⟨S64x64, .f32⟩
  | .hbm, ⟨79, _⟩ => ⟨S1x64, .f32⟩
  | .hbm, ⟨80, _⟩ => ⟨S64, .f32⟩
  | .hbm, ⟨81, _⟩ => ⟨S1x64x64, .f32⟩
  | .hbm, ⟨82, _⟩ => ⟨S64x64, .f32⟩
  | .hbm, ⟨83, _⟩ => ⟨S100000x64, .bf16⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .bf16⟩
  | .hbm, ⟨93, _⟩ => ⟨S1600000x64, .f32⟩
  | .hbm, ⟨94, _⟩ => ⟨S_, .f32⟩
  | .hbm, ⟨95, _⟩ => ⟨S100000x64, .f32⟩
  | .hbm, ⟨96, _⟩ => ⟨S1600000x1, .i32⟩
  | .hbm, ⟨97, _⟩ => ⟨S100000x64, .f32⟩
  | .hbm, ⟨98, _⟩ => ⟨S1x64x64, .f32⟩
  | .hbm, ⟨99, _⟩ => ⟨S64x64, .f32⟩
  | .hbm, ⟨100, _⟩ => ⟨S1x64, .f32⟩
  | .hbm, ⟨101, _⟩ => ⟨S64, .f32⟩
  | .hbm, ⟨102, _⟩ => ⟨S1x64x64, .f32⟩
  | .hbm, ⟨103, _⟩ => ⟨S64x64, .f32⟩
  | .hbm, ⟨104, _⟩ => ⟨S100000x64, .bf16⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x64, .bf16⟩
  | .hbm, ⟨114, _⟩ => ⟨S1600000x64, .f32⟩
  | .hbm, ⟨115, _⟩ => ⟨S_, .f32⟩
  | .hbm, ⟨116, _⟩ => ⟨S100000x64, .f32⟩
  | .hbm, ⟨117, _⟩ => ⟨S1600000x1, .i32⟩
  | .hbm, ⟨118, _⟩ => ⟨S100000x64, .f32⟩
  | .hbm, ⟨119, _⟩ => ⟨S1x64x64, .f32⟩
  | .hbm, ⟨120, _⟩ => ⟨S64x64, .f32⟩
  | .hbm, ⟨121, _⟩ => ⟨S1x64, .f32⟩
  | .hbm, ⟨122, _⟩ => ⟨S64, .f32⟩
  | .hbm, ⟨123, _⟩ => ⟨S1x64x64, .f32⟩
  | .hbm, ⟨124, _⟩ => ⟨S64x64, .f32⟩
  | .hbm, ⟨125, _⟩ => ⟨S100000x64, .bf16⟩
  | .hbm, ⟨126, _⟩ => ⟨S20000x320, .bf16⟩
  | .hbm, ⟨127, _⟩ => ⟨S20000x1, .f32⟩
  | .local _ .vmem, ⟨0, _⟩ => ⟨S4000x64, .f32⟩
  | .local _ .vmem, ⟨1, _⟩ => ⟨S4000x64, .f32⟩
  | .local _ .vmem, ⟨2, _⟩ => ⟨S4000x64, .bf16⟩
  | .local _ .vmem, ⟨3, _⟩ => ⟨S4000x64, .bf16⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S4000x64, .bf16⟩
  | .local _ .vmem, ⟨10, _⟩ => ⟨S4000x64, .bf16⟩
  | .local _ .vmem, ⟨11, _⟩ => ⟨S4000x64, .f32⟩
  | .local _ .vmem, ⟨12, _⟩ => ⟨S4000x64, .f32⟩
  | .local _ .vmem, ⟨13, _⟩ => ⟨S4000x64, .bf16⟩
  | .local _ .vmem, ⟨14, _⟩ => ⟨S4000x64, .bf16⟩
  | .local _ .vmem, ⟨15, _⟩ => ⟨S4000x1, .f32⟩
  | .local _ .vmem, ⟨16, _⟩ => ⟨S4000x1, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S4000x64, .bf16⟩
  | .local _ .vmem, ⟨21, _⟩ => ⟨S4000x64, .bf16⟩
  | .local _ .vmem, ⟨22, _⟩ => ⟨S4000x64, .f32⟩
  | .local _ .vmem, ⟨23, _⟩ => ⟨S4000x64, .f32⟩
  | .local _ .vmem, ⟨24, _⟩ => ⟨S4000x64, .bf16⟩
  | .local _ .vmem, ⟨25, _⟩ => ⟨S4000x64, .bf16⟩
  | .local _ .vmem, ⟨26, _⟩ => ⟨S4000x1, .f32⟩
  | .local _ .vmem, ⟨27, _⟩ => ⟨S4000x1, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S4000x64, .bf16⟩
  | .local _ .vmem, ⟨32, _⟩ => ⟨S4000x64, .bf16⟩
  | .local _ .vmem, ⟨33, _⟩ => ⟨S4000x64, .f32⟩
  | .local _ .vmem, ⟨34, _⟩ => ⟨S4000x64, .f32⟩
  | .local _ .vmem, ⟨35, _⟩ => ⟨S4000x64, .bf16⟩
  | .local _ .vmem, ⟨36, _⟩ => ⟨S4000x64, .bf16⟩
  | .local _ .vmem, ⟨37, _⟩ => ⟨S4000x1, .f32⟩
  | .local _ .vmem, ⟨38, _⟩ => ⟨S4000x1, .f32⟩
  | .local _ .vmem, ⟨39, _⟩ => ⟨S64x64, .f32⟩
  | .local _ .vmem, ⟨40, _⟩ => ⟨S64, .f32⟩
  | .local _ .vmem, ⟨41, _⟩ => ⟨S64x64, .f32⟩
  | .local _ .vmem, ⟨42, _⟩ => ⟨S4000x64, .bf16⟩
  | .local _ .vmem, ⟨43, _⟩ => ⟨S4000x64, .bf16⟩
  | .local _ .vmem, ⟨44, _⟩ => ⟨S4000x64, .f32⟩
  | .local _ .vmem, ⟨45, _⟩ => ⟨S4000x64, .f32⟩
  | .local _ .vmem, ⟨46, _⟩ => ⟨S4000x64, .bf16⟩
  | .local _ .vmem, ⟨47, _⟩ => ⟨S4000x64, .bf16⟩
  | .local _ .vmem, ⟨48, _⟩ => ⟨S4000x1, .f32⟩
  | .local _ .vmem, ⟨49, _⟩ => ⟨S4000x1, .f32⟩
  | .local _ .vmem, ⟨50, _⟩ => ⟨S64x64, .f32⟩
  | .local _ .vmem, ⟨51, _⟩ => ⟨S64, .f32⟩
  | .local _ .vmem, ⟨52, _⟩ => ⟨S64x64, .f32⟩
  | .local _ .vmem, ⟨53, _⟩ => ⟨S4000x64, .bf16⟩
  | .local _ .vmem, ⟨54, _⟩ => ⟨S4000x64, .bf16⟩
  | .local _ .vmem, ⟨55, _⟩ => ⟨S4000x320, .bf16⟩
  | .local _ .vmem, ⟨56, _⟩ => ⟨S4000x320, .bf16⟩
  | .local _ .vmem, ⟨57, _⟩ => ⟨S320x1, .f32⟩
  | .local _ .vmem, ⟨58, _⟩ => ⟨S1, .f32⟩
  | .local _ .vmem, ⟨59, _⟩ => ⟨S4000x1, .f32⟩
  | .local _ .vmem, ⟨60, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_c_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_c_13 : Ref sig .tc := ⟨.hbm, 105, rfl⟩
abbrev main_v83 : Ref sig .tc := ⟨.hbm, 106, rfl⟩
abbrev main_v84 : Ref sig .tc := ⟨.hbm, 107, rfl⟩
abbrev main_c_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg3_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem3_1 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x64 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x64 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x320 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S320x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bitsLt_bf16_f32 : FTy.bits .bf16 < FTy.bits .f32
  bcast_S_S1600000 : S_.BroadcastsInDim S1600000 (![] : Fin 0 → Fin S1600000.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S4000x64 : S1x64.Broadcasts S4000x64
  packedbf16_S4000x64_S4000x64_0_0 : (Rect.unit (s := S4000x64) ![0, 0] S4000x64.size inb_S4000x64_S4000x64_0_0).PackedRows (EltTy.packing .bf16)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  shapeCasts_S100000x64_S20000x320 : S100000x64.ShapeCasts S20000x320
  inb_S4000x320_S4000x320_0_0 : ∀ a, (![0, 0] : Fin 2 → Nat) a + S4000x320.size a ≤ S4000x320.size a
  h_S4000x320 : 0 < S4000x320.numel
  shapeCasts_S4000x320_S4000x320 : S4000x320.ShapeCasts S4000x320
  inb_S320x1_S320x1_0_0 : ∀ a, (![0, 0] : Fin 2 → Nat) a + S320x1.size a ≤ S320x1.size a
  h_S320x1 : 0 < S320x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x320_S320x1_S4000x1_1_0_0_1_n_n_wf : DotDims.WF S4000x320 S320x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .bf16 = 32 ∨ (Rect.block (s := S100000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .bf16 = 32 ∨ (Rect.block (s := S100000x64) S4000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .bf16 = 32 ∨ (Rect.block (s := S100000x64) S4000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .bf16 = 32 ∨ (Rect.block (s := S100000x64) S4000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .bf16 = 32 ∨ (Rect.block (s := S100000x64) S4000x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .bf16 = 32 ∨ (Rect.block (s := S100000x64) S4000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S100000x64.size a
  hwx3_6 : ∀ i : grid3.Coords, EltTy.bits .bf16 = 32 ∨ (Rect.block (s := S100000x64) S4000x64.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S100000x64.size a
  hwx4_1 : ∀ i : grid4.Coords, EltTy.bits .bf16 = 32 ∨ (Rect.block (s := S100000x64) S4000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x64.size a ≤ S100000x64.size a
  hwx4_6 : ∀ i : grid4.Coords, EltTy.bits .bf16 = 32 ∨ (Rect.block (s := S100000x64) S4000x64.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x320.size a ≤ S20000x320.size a
  hwx5_0 : ∀ i : grid5.Coords, EltTy.bits .bf16 = 32 ∨ (Rect.block (s := S20000x320) S4000x320.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S320x1.size a ≤ S320x1.size a
  hwx5_1 : ∀ i : grid5.Coords, EltTy.bits .f32 = 32 ∨ (Rect.block (s := S320x1) S320x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1.size a ≤ S1.size a
  hwx5_2 : ∀ i : grid5.Coords, EltTy.bits .f32 = 32 ∨ (Rect.block (s := S1) S1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x1.size a ≤ S20000x1.size a
  hwx5_3 : ∀ i : grid5.Coords, EltTy.bits .f32 = 32 ∨ (Rect.block (s := S20000x1) S4000x1.size (cc5_transform_3 i) (hinb5_3 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x320_S320x1_S4000x1_1_0_0_1_n_n : DotDims S4000x320 S320x1 S4000x1 where
  lhsContracting := [1]
  rhsContracting := [0]
  lhsNonContracting := [0]
  rhsNonContracting := [1]
  lhsBatch := []
  rhsBatch := []
  wf := dot_S4000x320_S320x1_S4000x1_1_0_0_1_n_n_wf

abbrev win0_0 : Pipeline.Window sig grid0 :=
  Pipeline.Window.ofSpec (Memref.whole main_v21) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v75) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v93) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v95) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S4000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v101) S4000x320.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S320x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg6) S1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S4000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S5x64x64 : Shape := ⟨3, ![5, 64, 64]⟩
abbrev S5x64 : Shape := ⟨2, ![5, 64]⟩
abbrev S320x1 : Shape := ⟨2, ![320, 1]⟩
abbrev S1 : Shape := ⟨1, ![1]⟩
abbrev S1x1600000 : Shape := ⟨2, ![1, 1600000]⟩
abbrev S1600000 : Shape := ⟨1, ![1600000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S20000x320 : Shape := ⟨2, ![20000, 320]⟩
abbrev S20000x1 : Shape := ⟨2, ![20000, 1]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S100000x64, .f32⟩
  | 1 => ⟨S2x1600000, .i32⟩
  | 2 => ⟨S5x64x64, .f32⟩
  | 3 => ⟨S5x64, .f32⟩
  | 4 => ⟨S5x64x64, .f32⟩
  | 5 => ⟨S320x1, .f32⟩
  | 6 => ⟨S1, .f32⟩
  | 7 => ⟨S1x1600000, .i32⟩
  | 8 => ⟨S1600000, .i32⟩
  | 9 => ⟨S1x1600000, .i32⟩
  | 10 => ⟨S1600000, .i32⟩
  | 11 => ⟨S1x64x64, .f32⟩
  | 12 => ⟨S64x64, .f32⟩
  | 13 => ⟨S1x64, .f32⟩
  | 14 => ⟨S64, .f32⟩
  | 15 => ⟨S1x64x64, .f32⟩
  | 16 => ⟨S64x64, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S1600000x1, .f32⟩
  | 32 => ⟨S_, .f32⟩
  | 33 => ⟨S100000x1, .f32⟩
  | 34 => ⟨S1600000x1, .i32⟩
  | 35 => ⟨S100000x1, .f32⟩
  | 36 => ⟨S_, .f32⟩
  | 37 => ⟨S100000x1, .f32⟩
  | 38 => ⟨S100000x1, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S1x64x64, .f32⟩
  | 51 => ⟨S64x64, .f32⟩
  | 52 => ⟨S1x64, .f32⟩
  | 53 => ⟨S64, .f32⟩
  | 54 => ⟨S1x64x64, .f32⟩
  | 55 => ⟨S64x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S_, .f32⟩
  | 70 => ⟨S1600000x1, .f32⟩
  | 71 => ⟨S_, .f32⟩
  | 72 => ⟨S100000x1, .f32⟩
  | 73 => ⟨S1600000x1, .i32⟩
  | 74 => ⟨S100000x1, .f32⟩
  | 75 => ⟨S_, .f32⟩
  | 76 => ⟨S100000x1, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S1x64x64, .f32⟩
  | 90 => ⟨S64x64, .f32⟩
  | 91 => ⟨S1x64, .f32⟩
  | 92 => ⟨S64, .f32⟩
  | 93 => ⟨S1x64x64, .f32⟩
  | 94 => ⟨S64x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S_, .f32⟩
  | 109 => ⟨S1600000x1, .f32⟩
  | 110 => ⟨S_, .f32⟩
  | 111 => ⟨S100000x1, .f32⟩
  | 112 => ⟨S1600000x1, .i32⟩
  | 113 => ⟨S100000x1, .f32⟩
  | 114 => ⟨S_, .f32⟩
  | 115 => ⟨S100000x1, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S1x64x64, .f32⟩
  | 5 => ⟨S64x64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S_, .f32⟩
  | 20 => ⟨S1600000x1, .f32⟩
  | 21 => ⟨S_, .f32⟩
  | 22 => ⟨S100000x1, .f32⟩
  | 23 => ⟨S1600000x1, .i32⟩
  | 24 => ⟨S100000x1, .f32⟩
  | 25 => ⟨S_, .f32⟩
  | 26 => ⟨S100000x1, .f32⟩
  | 27 => ⟨S100000x1, .f32⟩
  | 28 => ⟨S100000x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S1x64x64, .f32⟩
  | 40 => ⟨S64x64, .f32⟩
  | 41 => ⟨S1x64, .f32⟩
  | 42 => ⟨S64, .f32⟩
  | 43 => ⟨S1x64x64, .f32⟩
  | 44 => ⟨S64x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S_, .f32⟩
  | 59 => ⟨S1600000x1, .f32⟩
  | 60 => ⟨S_, .f32⟩
  | 61 => ⟨S100000x1, .f32⟩
  | 62 => ⟨S1600000x1, .i32⟩
  | 63 => ⟨S100000x1, .f32⟩
  | 64 => ⟨S_, .f32⟩
  | 65 => ⟨S100000x1, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S20000x320, .f32⟩
  | 79 => ⟨S20000x1, .f32⟩
  | 80 => ⟨S1x1, .f32⟩
  | 81 => ⟨S20000x1, .f32⟩
  | 82 => ⟨S20000x1, .f32⟩
  | 83 => ⟨S20000x1, .f32⟩
  | 84 => ⟨S20000x1, .f32⟩
  | 85 => ⟨S_, .f32⟩
  | 86 => ⟨S20000x1, .f32⟩
  | 87 => ⟨S20000x1, .f32⟩
  | 88 => ⟨S_, .f32⟩
  | 89 => ⟨S20000x1, .f32⟩
  | 90 => ⟨S20000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call1_cst : Ref sig .tc := ⟨.hbm, 86, rfl⟩
abbrev main_call1_v0 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_10 : Ref sig .tc := ⟨.hbm, 95, rfl⟩
abbrev main_v72 : Ref sig .tc := ⟨.hbm, 96, rfl⟩
abbrev main_v73 : Ref sig .tc := ⟨.hbm, 97, rfl⟩
abbrev main_c_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_call2_cst : Ref sig .tc := ⟨.hbm, 125, rfl⟩
abbrev main_call2_v0 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_16 : Ref sig .tc := ⟨.hbm, 134, rfl⟩
abbrev main_v103 : Ref sig .tc := ⟨.hbm, 135, rfl⟩
abbrev main_v104 : Ref sig .tc := ⟨.hbm, 136, rfl⟩
abbrev main_c_17 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_18 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_cst_20 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_21 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_call3_cst : Ref sig .tc := ⟨.hbm, 164, rfl⟩
abbrev main_call3_v0 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_22 : Ref sig .tc := ⟨.hbm, 173, rfl⟩
abbrev main_v134 : Ref sig .tc := ⟨.hbm, 174, rfl⟩
abbrev main_v135 : Ref sig .tc := ⟨.hbm, 175, rfl⟩
abbrev main_c_23 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_24 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_25 : Ref sig .tc := ⟨.hbm, 186, rfl⟩
abbrev main_v144 : Ref sig .tc := ⟨.hbm, 187, rfl⟩
abbrev main_cst_26 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_27 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_call4_cst : Ref sig .tc := ⟨.hbm, 203, rfl⟩
abbrev main_call4_v0 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_28 : Ref sig .tc := ⟨.hbm, 213, rfl⟩
abbrev main_v166 : Ref sig .tc := ⟨.hbm, 214, rfl⟩
abbrev main_v167 : Ref sig .tc := ⟨.hbm, 215, rfl⟩
abbrev main_cst_29 : Ref sig .tc := ⟨.hbm, 216, rfl⟩
abbrev main_v168 : Ref sig .tc := ⟨.hbm, 217, rfl⟩
abbrev main_v169 : Ref sig .tc := ⟨.hbm, 218, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  shapeCasts_S100000x64_S20000x320 : S100000x64.ShapeCasts S20000x320
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  bcast_S_S20000x1 : S_.BroadcastsInDim S20000x1 (![] : Fin 0 → Fin S20000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S20000x320_S320x1_S20000x1_1_0_0_1_n_n_wf : DotDims.WF S20000x320 S320x1 S20000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S20000x320_S320x1_S20000x1_1_0_0_1_n_n : DotDims S20000x320 S320x1 S20000x1 where
  lhsContracting := [1]
  rhsContracting := [0]
  lhsNonContracting := [0]
  rhsNonContracting := [1]
  lhsBatch := []
  rhsBatch := []
  wf := dot_S20000x320_S320x1_S20000x1_1_0_0_1_n_n_wf

class Facts : Prop extends Facts₀ where

variable [Facts]
-- ==== Proof.KRun.lean ====
/-
  The idealized kernel's run with its result named.

  The program is six kernel launches among stretches of host operations.  Write W0 for the buffers at launch, W1 for
  them after the first host stretch, W2 after the first launch's write-backs, and so on to W12 after the last launch.
  Every weakly fair execution terminates, nothing faulting, in a state where each unscoped buffer holds what W12 says;
  in particular the result buffer holds W12 at the result, and the seven arguments hold what they held at launch.
-/
import proofs.«110137_j62277025792168_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result buffer at W12's value there and the arguments as launched. -/
theorem run_named : θ_run defs (onTc (τ := τ) (main (F := F))) ⟨m, fun _ => 0, ρ⟩ (fun r => ∀ c : Dev nD,
      r.2.mem ((c.tc : Thread nD τ).loc main_v102) = W12 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v102 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Run

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibMeanLayer.lean ====
/-
  One graph-convolution layer with mean aggregation, and the closing linear layer with the logistic function, read one
  entry at a time at the exact (extended-real) values.

  A layer takes the node features h (M rows of K numbers), the row sums msg of the features gathered along the edges, and
  the clamped in-degrees deg (one number per row).  Row p of its result is
      max( (msg(p,·) / deg(p)) · Wl + bl + h(p,·) · Wr , 0 ),
  so it depends on row p of msg, h and deg only: rows do not mix.  The vector unit computes it for a block of rows
  (divide, two products into zero, the bias kept as a 1×N row and spread, the clamp against a splat of zero); the host
  computes it for all rows at once (divide by the degree column spread over the K columns, two dot_generals, the bias
  spread in two steps, the clamp against a rank-0 zero spread over the array).  Both are the one function `combine`.

  The closing layer sends a row r of K numbers to  logistic( r · W + b );  the vector unit applies the logistic function
  in one operation, the host spells it  1 / (1 + exp(−x)),  and on the extended reals these are the same function.
-/
import Idealize.ShloMosaic.Lib.ValueIdx
import Idealize.ShloMosaic.Lib.Pipeline.Value
import Idealize.ShloMosaic.Lib.IdealHost
import Idealize.ShloMosaic.PureOps.Ideal.Laws
import proofs.«110137_j62277025792168_2_alg».proof.Proof.LibRowDot
import proofs.«110137_j62277025792168_2_alg».proof.Proof.LibRowBias
import proofs.«110137_j62277025792168_2_alg».proof.Proof.LibColumn

noncomputable section

open scoped BigOperators

namespace Cert.Sage

open Idealize.ShloMosaic Idealize.ShloMosaic.ValueIdx Cert.RowDot Cert.RowBias Cert.Column

/-- An a×b array of extended reals. -/
abbrev Mat (a b : Nat) := (⟨2, ![a, b]⟩ : Shape).Idx → EReal
/-- A length-a array of extended reals. -/
abbrev Arr (a : Nat) := (⟨1, ![a]⟩ : Shape).Idx → EReal

/-- Row p of the summed messages, each entry divided by the row's degree. -/
def meanRow {M K : Nat} (msg : Mat M K) (deg : Mat M 1) (p : Fin M) : Fin K → EReal :=
  fun k => Ideal.div (msg (ix2 p k)) (deg (ix2 p (0 : Fin 1)))

/-- One layer: entry (p, q) is  max( meanRow(p) · Wl (q) + bl(q) + h(p,·) · Wr (q), 0 ). -/
def combine {M K N : Nat} (msg h : Mat M K) (deg : Mat M 1) (Wl Wr : Mat K N) (bl : Arr N) : Mat M N :=
  fun i => max ((rowDot (meanRow msg deg (i 0)) Wl (i 1) + bl (ix1 (i 1))) + rowDot (rowOf h (i 0)) Wr (i 1))
    (Ideal.ofBits .f32 0x00000000#32)

/-- The closing layer: entry (p, q) is  logistic( h(p,·) · W (q) + b(q) ). -/
def closing {M K N : Nat} (h : Mat M K) (W : Mat K N) (b : Arr N) : Mat M N :=
  fun i => Ideal.logistic (rowDot (rowOf h (i 0)) W (i 1) + b (ix1 (i 1)))

/-- A layer's entry depends on its own row of msg, h and deg only. -/
theorem combine_rows {M M' K N : Nat} (msg h : Mat M K) (deg : Mat M 1) (msg' h' : Mat M' K) (deg' : Mat M' 1)
    (Wl Wr : Mat K N) (bl : Arr N) (p : Fin M) (p' : Fin M') (q : Fin N)
    (hm : ∀ k, msg (ix2 p k) = msg' (ix2 p' k)) (hh : ∀ k, h (ix2 p k) = h' (ix2 p' k))
    (hd : deg (ix2 p (0 : Fin 1)) = deg' (ix2 p' (0 : Fin 1))) :
    combine msg h deg Wl Wr bl (ix2 p q) = combine msg' h' deg' Wl Wr bl (ix2 p' q) := by
  have e1 : meanRow msg deg p = meanRow msg' deg' p' := funext fun k => by unfold meanRow; rw [hm k, hd]
  have e2 : rowOf h p = rowOf h' p' := funext fun k => hh k
  show max ((rowDot (meanRow msg deg p) Wl q + bl (ix1 q)) + rowDot (rowOf h p) Wr q) _
    = max ((rowDot (meanRow msg' deg' p') Wl q + bl (ix1 q)) + rowDot (rowOf h' p') Wr q) _
  rw [e1, e2]

/-- The closing layer's entry depends on its own row of h only. -/
theorem closing_rows {M M' K N : Nat} (h : Mat M K) (h' : Mat M' K) (W : Mat K N) (b : Arr N) (p : Fin M) (p' : Fin M')
    (q : Fin N) (hh : ∀ k, h (ix2 p k) = h' (ix2 p' k)) :
    closing h W b (ix2 p q) = closing h' W b (ix2 p' q) := by
  have e2 : rowOf h p = rowOf h' p' := funext fun k => hh k
  show Ideal.logistic (rowDot (rowOf h p) W q + b (ix1 q)) = Ideal.logistic (rowDot (rowOf h' p') W q + b (ix1 q))
  rw [e2]

/-- An a×1 column spread over b columns by the host (both axes kept) reads, at (p, c), the column at (p, 0). -/
theorem spreadColInDim_apply {α : Type} {a b : Nat} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) (fun ax => match ax with
    | ⟨0, _⟩ => by
        show p.val = if a = 1 then 0 else p.val
        split
        · have := p.isLt; omega
        · rfl
    | ⟨1, _⟩ => by show (0 : Nat) = if (1 : Nat) = 1 then 0 else _; rw [if_pos rfl])

/-- The vector unit's layer on a block of M rows is `combine` of the block. -/
theorem block_eq_combine {M K N : Nat} (msg : FVec Ideal ⟨2, ![M, K]⟩ .f32) (deg : FVec Ideal ⟨2, ![M, 1]⟩ .f32)
    (h : FVec Ideal ⟨2, ![M, K]⟩ .bf16) (Wl Wr : FVec Ideal ⟨2, ![K, N]⟩ .f32) (bl : FVec Ideal ⟨1, ![N]⟩ .f32)
    (cA : (⟨2, ![M, K]⟩ : Shape).ShapeCasts ⟨2, ![M, K]⟩) (cD : (⟨2, ![M, 1]⟩ : Shape).ShapeCasts ⟨2, ![M, 1]⟩)
    (bD : (⟨2, ![M, 1]⟩ : Shape).Broadcasts ⟨2, ![M, K]⟩) (cW : (⟨2, ![K, N]⟩ : Shape).ShapeCasts ⟨2, ![K, N]⟩)
    (cB : (⟨1, ![N]⟩ : Shape).ShapeCasts ⟨1, ![N]⟩) (cR : (⟨1, ![N]⟩ : Shape).ShapeCasts ⟨2, ![1, N]⟩)
    (bR : (⟨2, ![1, N]⟩ : Shape).Broadcasts ⟨2, ![M, N]⟩) (hlt : FTy.bf16.bits < FTy.f32.bits) :
    (truncf .bf16 (maximumf (addf (addf
        (matmul (DotDims.plain M K N) none
          (truncf .bf16 (divf (shapeCast ⟨2, ![M, K]⟩ msg cA) (broadcastTo ⟨2, ![M, K]⟩ (shapeCast ⟨2, ![M, 1]⟩ deg cD) bD)) hlt)
          (truncf .bf16 (shapeCast ⟨2, ![K, N]⟩ Wl cW) hlt) (constant (F := Ideal) ⟨2, ![M, N]⟩ .f32 0x00000000#32))
        (broadcastTo ⟨2, ![M, N]⟩ (shapeCast ⟨2, ![1, N]⟩ (shapeCast ⟨1, ![N]⟩ bl cB) cR) bR))
        (matmul (DotDims.plain M K N) none (shapeCast ⟨2, ![M, K]⟩ h cA)
          (truncf .bf16 (shapeCast ⟨2, ![K, N]⟩ Wr cW) hlt) (constant (F := Ideal) ⟨2, ![M, N]⟩ .f32 0x00000000#32)))
      (broadcast ⟨2, ![M, N]⟩ (Scalar.ofBits (F := Ideal) .f32 0x00000000#32))) hlt : FVec Ideal ⟨2, ![M, N]⟩ .bf16)
      = combine msg h deg Wl Wr bl := by
  funext j
  obtain ⟨p, q, rfl⟩ : ∃ (p : Fin M) (q : Fin N), j = ix2 p q := ⟨j 0, j 1, eq_ix2 j⟩
  rw [shapeCast_self msg cA, shapeCast_self deg cD, shapeCast_self Wl cW, shapeCast_self Wr cW, shapeCast_self bl cB,
    shapeCast_self h cA]
  have hmean : rowOf (truncf .bf16 (divf msg (broadcastTo ⟨2, ![M, K]⟩ deg bD)) hlt : FVec Ideal ⟨2, ![M, K]⟩ .bf16) p
      = meanRow msg deg p := funext fun k => by
    show Ideal.div (msg (ix2 p k)) (broadcastTo ⟨2, ![M, K]⟩ deg bD (ix2 p k)) = _
    rw [broadcastTo_a1_ab_apply]
    rfl
  have t1 : matmul (DotDims.plain M K N) none
        (truncf .bf16 (divf msg (broadcastTo ⟨2, ![M, K]⟩ deg bD)) hlt : FVec Ideal ⟨2, ![M, K]⟩ .bf16)
        (truncf .bf16 Wl hlt : FVec Ideal ⟨2, ![K, N]⟩ .bf16) (constant (F := Ideal) ⟨2, ![M, N]⟩ .f32 0x00000000#32) (ix2 p q)
      = rowDot (meanRow msg deg p) Wl q := by
    refine (matmul_plain_zero_apply none _ _ (ix2 p q)).trans ?_
    exact congrArg (fun r => rowDot r Wl q) hmean
  have t2 : matmul (DotDims.plain M K N) none h
        (truncf .bf16 Wr hlt : FVec Ideal ⟨2, ![K, N]⟩ .bf16) (constant (F := Ideal) ⟨2, ![M, N]⟩ .f32 0x00000000#32) (ix2 p q)
      = rowDot (rowOf h p) Wr q :=
    matmul_plain_zero_apply none h (truncf .bf16 Wr hlt : FVec Ideal ⟨2, ![K, N]⟩ .bf16) (ix2 p q)
  have t3 : broadcastTo ⟨2, ![M, N]⟩ (shapeCast ⟨2, ![1, N]⟩ bl cR) bR (ix2 p q) = bl (ix1 q) := by
    rw [spreadRow_apply]
    exact asRow_apply bl cR q
  show max ((matmul (DotDims.plain M K N) none
        (truncf .bf16 (divf msg (broadcastTo ⟨2, ![M, K]⟩ deg bD)) hlt : FVec Ideal ⟨2, ![M, K]⟩ .bf16)
        (truncf .bf16 Wl hlt : FVec Ideal ⟨2, ![K, N]⟩ .bf16) (constant (F := Ideal) ⟨2, ![M, N]⟩ .f32 0x00000000#32) (ix2 p q)
      + broadcastTo ⟨2, ![M, N]⟩ (shapeCast ⟨2, ![1, N]⟩ bl cR) bR (ix2 p q))
      + matmul (DotDims.plain M K N) none h
        (truncf .bf16 Wr hlt : FVec Ideal ⟨2, ![K, N]⟩ .bf16) (constant (F := Ideal) ⟨2, ![M, N]⟩ .f32 0x00000000#32) (ix2 p q))
      (Ideal.ofBits .f32 0x00000000#32) = _
  rw [t1, t2, t3]
  rfl

/-- The host's layer on all M rows is `combine`. -/
theorem host_eq_combine {M K N : Nat} (msg h : FVec Ideal ⟨2, ![M, K]⟩ .f32) (deg : FVec Ideal ⟨2, ![M, 1]⟩ .f32)
    (Wl Wr : FVec Ideal ⟨2, ![K, N]⟩ .f32) (bl : FVec Ideal ⟨1, ![N]⟩ .f32)
    (hD : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf
        (Host.dotGeneral (DotDims.plain M K N) none (Host.divf msg (broadcastInDim ⟨2, ![M, K]⟩ ![0, 1] hD deg)) Wl)
        (broadcastInDim ⟨2, ![M, N]⟩ ![0, 1] h2 (broadcastInDim ⟨2, ![1, N]⟩ ![1] h1 bl)))
        (Host.dotGeneral (DotDims.plain M K N) none h Wr))
      (broadcastInDim ⟨2, ![M, N]⟩ ![] h0 (constant (F := Ideal) ⟨0, ![]⟩ .f32 0x00000000#32))
      = combine msg h deg Wl Wr bl := by
  funext j
  obtain ⟨p, q, rfl⟩ : ∃ (p : Fin M) (q : Fin N), j = ix2 p q := ⟨j 0, j 1, eq_ix2 j⟩
  have hmean : rowOf (Host.divf msg (broadcastInDim ⟨2, ![M, K]⟩ ![0, 1] hD deg)) p = meanRow msg deg p :=
    funext fun k => by
      show Ideal.div (msg (ix2 p k)) (broadcastInDim ⟨2, ![M, K]⟩ ![0, 1] hD deg (ix2 p k)) = _
      rw [spreadColInDim_apply]
      rfl
  have t1 : Host.dotGeneral (DotDims.plain M K N) none (Host.divf msg (broadcastInDim ⟨2, ![M, K]⟩ ![0, 1] hD deg)) Wl (ix2 p q)
      = rowDot (meanRow msg deg p) Wl q := by
    refine (dotGeneral_plain_apply none .single _ Wl (ix2 p q)).trans ?_
    exact congrArg (fun r => rowDot r Wl q) hmean
  have t2 : Host.dotGeneral (DotDims.plain M K N) none h Wr (ix2 p q) = rowDot (rowOf h p) Wr q :=
    dotGeneral_plain_apply none .single h Wr (ix2 p q)
  have t3 : broadcastInDim ⟨2, ![M, N]⟩ ![0, 1] h2 (broadcastInDim ⟨2, ![1, N]⟩ ![1] h1 bl) (ix2 p q) = bl (ix1 q) := by
    rw [spreadRowInDim_apply]
    exact rowInDim_apply bl h1 q
  show max ((Host.dotGeneral (DotDims.plain M K N) none (Host.divf msg (broadcastInDim ⟨2, ![M, K]⟩ ![0, 1] hD deg)) Wl (ix2 p q)
      + broadcastInDim ⟨2, ![M, N]⟩ ![0, 1] h2 (broadcastInDim ⟨2, ![1, N]⟩ ![1] h1 bl) (ix2 p q))
      + Host.dotGeneral (DotDims.plain M K N) none h Wr (ix2 p q)) (Ideal.ofBits .f32 0x00000000#32) = _
  rw [t1, t2, t3]
  rfl

/-- The vector unit's closing layer on a block of M rows is `closing` of the block. -/
theorem block_eq_closing {M K N : Nat} (h : FVec Ideal ⟨2, ![M, K]⟩ .bf16) (W : FVec Ideal ⟨2, ![K, N]⟩ .f32)
    (b : FVec Ideal ⟨1, ![N]⟩ .f32) (cA : (⟨2, ![M, K]⟩ : Shape).ShapeCasts ⟨2, ![M, K]⟩)
    (cR : (⟨1, ![N]⟩ : Shape).ShapeCasts ⟨2, ![1, N]⟩) (bR : (⟨2, ![1, N]⟩ : Shape).Broadcasts ⟨2, ![M, N]⟩)
    (hlt : FTy.bf16.bits < FTy.f32.bits) :
    logistic (addf (matmul (DotDims.plain M K N) none (shapeCast ⟨2, ![M, K]⟩ h cA)
        (truncf .bf16 W hlt : FVec Ideal ⟨2, ![K, N]⟩ .bf16) (constant (F := Ideal) ⟨2, ![M, N]⟩ .f32 0x00000000#32))
      (broadcastTo ⟨2, ![M, N]⟩ (shapeCast ⟨2, ![1, N]⟩ b cR) bR)) = closing h W b := by
  funext j
  obtain ⟨p, q, rfl⟩ : ∃ (p : Fin M) (q : Fin N), j = ix2 p q := ⟨j 0, j 1, eq_ix2 j⟩
  rw [shapeCast_self h cA]
  have t2 : matmul (DotDims.plain M K N) none h
        (truncf .bf16 W hlt : FVec Ideal ⟨2, ![K, N]⟩ .bf16) (constant (F := Ideal) ⟨2, ![M, N]⟩ .f32 0x00000000#32) (ix2 p q)
      = rowDot (rowOf h p) W q :=
    matmul_plain_zero_apply none h (truncf .bf16 W hlt : FVec Ideal ⟨2, ![K, N]⟩ .bf16) (ix2 p q)
  have t3 : broadcastTo ⟨2, ![M, N]⟩ (shapeCast ⟨2, ![1, N]⟩ b cR) bR (ix2 p q) = b (ix1 q) := by
    rw [spreadRow_apply]
    exact asRow_apply b cR q
  show Ideal.logistic (matmul (DotDims.plain M K N) none h
        (truncf .bf16 W hlt : FVec Ideal ⟨2, ![K, N]⟩ .bf16) (constant (F := Ideal) ⟨2, ![M, N]⟩ .f32 0x00000000#32) (ix2 p q)
      + broadcastTo ⟨2, ![M, N]⟩ (shapeCast ⟨2, ![1, N]⟩ b cR) bR (ix2 p q)) = _
  rw [t2, t3]
  rfl

/-- The host's closing layer on all M rows, the logistic function spelt 1 / (1 + exp(−x)), is `closing`. -/
theorem host_eq_closing {M K N : Nat} (h : FVec Ideal ⟨2, ![M, K]⟩ .f32) (W : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    Host.divf (broadcastInDim ⟨2, ![M, N]⟩ ![] h0 (constant (F := Ideal) ⟨0, ![]⟩ .f32 0x3F800000#32))
      (addf (broadcastInDim ⟨2, ![M, N]⟩ ![] h0 (constant (F := Ideal) ⟨0, ![]⟩ .f32 0x3F800000#32))
        (Host.exp (Host.negf (addf (Host.dotGeneral (DotDims.plain M K N) none h W)
          (broadcastInDim ⟨2, ![M, N]⟩ ![0, 1] h2 (broadcastInDim ⟨2, ![1, N]⟩ ![1] h1 b))))))
      = closing h W b := by
  funext j
  obtain ⟨p, q, rfl⟩ : ∃ (p : Fin M) (q : Fin N), j = ix2 p q := ⟨j 0, j 1, eq_ix2 j⟩
  have t2 : Host.dotGeneral (DotDims.plain M K N) none h W (ix2 p q) = rowDot (rowOf h p) W q :=
    dotGeneral_plain_apply none .single h W (ix2 p q)
  have t3 : broadcastInDim ⟨2, ![M, N]⟩ ![0, 1] h2 (broadcastInDim ⟨2, ![1, N]⟩ ![1] h1 b) (ix2 p q) = b (ix1 q) := by
    rw [spreadRowInDim_apply]
    exact rowInDim_apply b h1 q
  show Ideal.div (Ideal.ofBits .f32 0x3F800000#32) (Ideal.ofBits .f32 0x3F800000#32
      + Ideal.exp (-(Host.dotGeneral (DotDims.plain M K N) none h W (ix2 p q)
        + broadcastInDim ⟨2, ![M, N]⟩ ![0, 1] h2 (broadcastInDim ⟨2, ![1, N]⟩ ![1] h1 b) (ix2 p q)))) = _
  rw [t2, t3, Ideal.ofBits_one_f32]
  rfl

end Cert.Sage

end
-- ==== Proof.Net.lean ====
/-
  The network as one function of the argument arrays.

  Five layers, then the closing layer.  Every layer uses the same edge list: the source ends (negative indices wrapped by
  the node count) pick the rows to gather, the destination ends say where each gathered row is added; the in-degree of a
  node is the number of edges arriving there, clamped below at one.  Layer k takes its weights and bias from slice k of
  the stacked arrays.  The last layer's features, 100000 rows of 64, are read as 20000 rows of 320 (five nodes per row) and
  go through the closing layer.
-/
import proofs.«110137_j62277025792168_2_alg».proof.Proof.Gen.KernelIdeal
import proofs.«110137_j62277025792168_2_alg».proof.Proof.LibMeanLayer

noncomputable section

namespace Cert.KernelIdeal.Net

open Idealize.ShloMosaic Cert.KernelIdeal Cert.KernelIdeal.Facts₀ Cert.Sage

abbrev Feat := (⟨S100000x64, .f32⟩ : BufTy).Contents (Elt Ideal)
abbrev Edges := (⟨S2x1600000, .i32⟩ : BufTy).Contents (Elt Ideal)
abbrev Ends := (⟨S1600000, .i32⟩ : BufTy).Contents (Elt Ideal)
abbrev Mats := (⟨S5x64x64, .f32⟩ : BufTy).Contents (Elt Ideal)
abbrev Biases := (⟨S5x64, .f32⟩ : BufTy).Contents (Elt Ideal)

/-- The edges' source ends. -/
def srcOf (e : Edges) : Ends :=
  shapeCast _ (extractStridedSlice S1x1600000 ![0, 0] e slices_S2x1600000_S1x1600000_0_0) shapeCasts_S1x1600000_S1600000

/-- The edges' destination ends. -/
def dstOf (e : Edges) : Ends :=
  shapeCast _ (extractStridedSlice S1x1600000 ![1, 0] e slices_S2x1600000_S1x1600000_1_0) shapeCasts_S1x1600000_S1600000

/-- The source ends as a column of row indices, a negative index wrapped by the node count. -/
def srcCol (src : Ends) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The destination ends as a column of row indices. -/
def dstCol (dst : Ends) : (⟨S1600000x1, .i32⟩ : BufTy).Contents (Elt Ideal) :=
  broadcastInDim S1600000x1 ![0] bcast_S1600000_S1600000x1_0 dst

/-- The in-degrees, clamped below at one, as a column. -/
def degCol (dst : Ends) : (⟨S100000x1, .f32⟩ : BufTy).Contents (Elt Ideal) :=
  maximumf
    (Host.scatterAdd scatter_S100000x1_S1600000x1_S1600000x1_1_0_0_1
      (broadcastInDim S100000x1 ![] bcast_S_S100000x1 (constant (F := Ideal) S_ .f32 0x00000000#32)) (dstCol dst)
      (broadcastInDim S1600000x1 ![] bcast_S_S1600000x1 (constant (F := Ideal) S_ .f32 0x3F800000#32)))
    (broadcastInDim S100000x1 ![] bcast_S_S100000x1 (constant (F := Ideal) S_ .f32 0x3F800000#32))

/-- The features gathered along the edges and added up at the destination ends. -/
def msgOf (h : Feat) (src dst : Ends) : Feat :=
  Host.scatterAdd scatter_S100000x64_S1600000x1_S1600000x64_1_0_0_1
    (broadcastInDim S100000x64 ![] bcast_S_S100000x64 (constant (F := Ideal) S_ .f32 0x00000000#32)) (dstCol dst)
    (Host.gather gather_S100000x64_S1600000x1_S1600000x64_1_0_n_n_0_1_164 h (srcCol src))

/-- Slice k of a stack of five 64×64 matrices. -/
def matAt (k : Nat) (hs : S5x64x64.Slices ![k, 0, 0] S1x64x64) (W : Mats) : (⟨S64x64, .f32⟩ : BufTy).Contents (Elt Ideal) :=
  shapeCast _ (extractStridedSlice S1x64x64 ![k, 0, 0] W hs) shapeCasts_S1x64x64_S64x64

/-- Slice k of a stack of five length-64 biases. -/
def vecAt (k : Nat) (hs : S5x64.Slices ![k, 0] S1x64) (b : Biases) : (⟨S64, .f32⟩ : BufTy).Contents (Elt Ideal) :=
  shapeCast _ (extractStridedSlice S1x64 ![k, 0] b hs) shapeCasts_S1x64_S64

/-- One layer on the whole graph, with given weights. -/
def layer (h : Feat) (src dst : Ends) (Wl : (⟨S64x64, .f32⟩ : BufTy).Contents (Elt Ideal))
    (bl : (⟨S64, .f32⟩ : BufTy).Contents (Elt Ideal)) (Wr : (⟨S64x64, .f32⟩ : BufTy).Contents (Elt Ideal)) : Feat :=
  combine (M := 100000) (K := 64) (N := 64) (msgOf h src dst) h (degCol dst) Wl Wr bl

/-- The five layers. -/
def h1 (x : Feat) (e : Edges) (Wl : Mats) (bl : Biases) (Wr : Mats) : Feat :=
  layer x (srcOf e) (dstOf e) (matAt 0 slices_S5x64x64_S1x64x64_0_0_0 Wl) (vecAt 0 slices_S5x64_S1x64_0_0 bl) (matAt 0 slices_S5x64x64_S1x64x64_0_0_0 Wr)
def h2 (x : Feat) (e : Edges) (Wl : Mats) (bl : Biases) (Wr : Mats) : Feat :=
  layer (h1 x e Wl bl Wr) (srcOf e) (dstOf e) (matAt 1 slices_S5x64x64_S1x64x64_1_0_0 Wl) (vecAt 1 slices_S5x64_S1x64_1_0 bl) (matAt 1 slices_S5x64x64_S1x64x64_1_0_0 Wr)
def h3 (x : Feat) (e : Edges) (Wl : Mats) (bl : Biases) (Wr : Mats) : Feat :=
  layer (h2 x e Wl bl Wr) (srcOf e) (dstOf e) (matAt 2 slices_S5x64x64_S1x64x64_2_0_0 Wl) (vecAt 2 slices_S5x64_S1x64_2_0 bl) (matAt 2 slices_S5x64x64_S1x64x64_2_0_0 Wr)
def h4 (x : Feat) (e : Edges) (Wl : Mats) (bl : Biases) (Wr : Mats) : Feat :=
  layer (h3 x e Wl bl Wr) (srcOf e) (dstOf e) (matAt 3 slices_S5x64x64_S1x64x64_3_0_0 Wl) (vecAt 3 slices_S5x64_S1x64_3_0 bl) (matAt 3 slices_S5x64x64_S1x64x64_3_0_0 Wr)
def h5 (x : Feat) (e : Edges) (Wl : Mats) (bl : Biases) (Wr : Mats) : Feat :=
  layer (h4 x e Wl bl Wr) (srcOf e) (dstOf e) (matAt 4 slices_S5x64x64_S1x64x64_4_0_0 Wl) (vecAt 4 slices_S5x64_S1x64_4_0 bl) (matAt 4 slices_S5x64x64_S1x64x64_4_0_0 Wr)

/-- The network's result. -/
def net (x : Feat) (e : Edges) (Wl : Mats) (bl : Biases) (Wr : Mats) (Wfc : (⟨S320x1, .f32⟩ : BufTy).Contents (Elt Ideal))
    (bfc : (⟨S1, .f32⟩ : BufTy).Contents (Elt Ideal)) : (⟨S20000x1, .f32⟩ : BufTy).Contents (Elt Ideal) :=
  closing (M := 20000) (K := 320) (N := 1) (shapeCast S20000x320 (h5 x e Wl bl Wr) shapeCasts_S100000x64_S20000x320) Wfc bfc

end Cert.KernelIdeal.Net

end
-- ==== Proof.Region0.lean ====
/-
  The first layer's launch, as one whole-array function.

  The launch walks 25 blocks of 4000 rows.  At block t the body reads rows 4000·t … 4000·t + 3999 of the summed
  messages, of the features and of the degree column, and the whole weight matrices and bias, and writes those rows of
  the result.  A layer's row depends on its own rows of the inputs only, so the 25 blocks laid end to end are the layer
  applied to the whole arrays.
-/
import proofs.«110137_j62277025792168_2_alg».proof.Proof.Gen.KernelIdeal.Frame
import proofs.«110137_j62277025792168_2_alg».proof.Proof.LibMeanLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Layer0

open Cert.KernelIdeal Cert.KernelIdeal.Gen Cert.Sage Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block t, the weights at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row 4000·t + p of the array. -/
def row (t : Fin cfg0.N) (p : Fin 4000) : Fin 100000 :=
  ⟨4000 * t.val + p.val, by have h1 : t.val < 25 := lt_of_lt_of_eq t.isLt N_0; have := p.isLt; omega⟩

/-- The layer applied to the arrays as the launch finds them. -/
def out (c : Dev nD) : Buf (Elt Ideal) ((c : Thread nD τ).loc main_v28) :=
  combine (M := 100000) (K := 64) (N := 64) (V c main_v21) (V c main_v10) (V c main_v9) (V c main_v23) (V c main_v27) (V c main_v25)

/-- The block of the summed messages at point t. -/
theorem blk0_apply (c : Dev nD) (t : Fin cfg0.N) (p : Fin 4000) (k : Fin 64) :
    (iblk0 V c 0 t : Vec Ideal S4000x64 .f32) (ix2 p k) = (V c main_v21 : S100000x64.Idx → EReal) (ix2 (row t p) k) := by
  obtain ⟨e0, e1, -⟩ := idx_facts t
  unfold iblk0
  rw [View.read_apply]
  show V c main_v21 _ = V c main_v21 _
  congr 1
  funext a
  apply Fin.ext
  match a with
  | ⟨0, _⟩ => show win0_0.index t 0 * 4000 + 1 * p.val = 4000 * t.val + p.val; rw [e0]; omega
  | ⟨1, _⟩ => show win0_0.index t 1 * 64 + 1 * k.val = k.val; rw [e1]; omega

/-- The block of the features at point t. -/
theorem blk1_apply (c : Dev nD) (t : Fin cfg0.N) (p : Fin 4000) (k : Fin 64) :
    (iblk0 V c 1 t : Vec Ideal S4000x64 .bf16) (ix2 p k) = (V c main_v10 : S100000x64.Idx → EReal) (ix2 (row t p) k) := by
  obtain ⟨-, -, e0, e1, -⟩ := idx_facts t
  unfold iblk0
  rw [View.read_apply]
  show V c main_v10 _ = V c main_v10 _
  congr 1
  funext a
  apply Fin.ext
  match a with
  | ⟨0, _⟩ => show win0_1.index t 0 * 4000 + 1 * p.val = 4000 * t.val + p.val; rw [e0]; omega
  | ⟨1, _⟩ => show win0_1.index t 1 * 64 + 1 * k.val = k.val; rw [e1]; omega

/-- The block of the degree column at point t. -/
theorem blk2_apply (c : Dev nD) (t : Fin cfg0.N) (p : Fin 4000) :
    (iblk0 V c 2 t : Vec Ideal S4000x1 .f32) (ix2 p (0 : Fin 1)) = (V c main_v9 : S100000x1.Idx → EReal) (ix2 (row t p) (0 : Fin 1)) := by
  obtain ⟨-, -, -, -, e0, e1, -⟩ := idx_facts t
  unfold iblk0
  rw [View.read_apply]
  show V c main_v9 _ = V c main_v9 _
  congr 1
  funext a
  apply Fin.ext
  match a with
  | ⟨0, _⟩ => show win0_2.index t 0 * 4000 + 1 * p.val = 4000 * t.val + p.val; rw [e0]; omega
  | ⟨1, _⟩ => show win0_2.index t 1 * 1 + 1 * 0 = 0; rw [e1]

/-- The weight and bias windows hold their whole arrays at every point. -/
theorem blk3_eq (c : Dev nD) (t : Fin cfg0.N) : (iblk0 V c 3 t : Vec Ideal S64x64 .f32) = (V c main_v23 : S64x64.Idx → EReal) := by
  obtain ⟨-, -, -, -, -, -, e0, e1, -⟩ := idx_facts t
  funext j
  unfold iblk0
  rw [View.read_apply]
  show V c main_v23 _ = V c main_v23 _
  congr 1
  funext a
  apply Fin.ext
  match a with
  | ⟨0, _⟩ => show win0_3.index t 0 * 64 + 1 * (j 0).val = (j 0).val; rw [e0]; omega
  | ⟨1, _⟩ => show win0_3.index t 1 * 64 + 1 * (j 1).val = (j 1).val; rw [e1]; omega

theorem blk4_eq (c : Dev nD) (t : Fin cfg0.N) : (iblk0 V c 4 t : Vec Ideal S64 .f32) = (V c main_v25 : S64.Idx → EReal) := by
  obtain ⟨-, -, -, -, -, -, -, -, e0, -⟩ := idx_facts t
  funext j
  unfold iblk0
  rw [View.read_apply]
  show V c main_v25 _ = V c main_v25 _
  congr 1
  funext a
  apply Fin.ext
  match a with
  | ⟨0, _⟩ => show win0_4.index t 0 * 64 + 1 * (j 0).val = (j 0).val; rw [e0]; omega

theorem blk5_eq (c : Dev nD) (t : Fin cfg0.N) : (iblk0 V c 5 t : Vec Ideal S64x64 .f32) = (V c main_v27 : S64x64.Idx → EReal) := by
  obtain ⟨-, -, -, -, -, -, -, -, -, e0, e1, -⟩ := idx_facts t
  funext j
  unfold iblk0
  rw [View.read_apply]
  show V c main_v27 _ = V c main_v27 _
  congr 1
  funext a
  apply Fin.ext
  match a with
  | ⟨0, _⟩ => show win0_5.index t 0 * 64 + 1 * (j 0).val = (j 0).val; rw [e0]; omega
  | ⟨1, _⟩ => show win0_5.index t 1 * 64 + 1 * (j 1).val = (j 1).val; rw [e1]; omega

/-- The body's stored value is the layer of its loaded blocks. -/
theorem pay_eq (x0 : Vec Ideal S4000x64 .f32) (x2 : Vec Ideal S4000x1 .f32) (x7 : Vec Ideal S4000x64 .bf16)
    (x9 x12 : Vec Ideal S64x64 .f32) (x15 : Vec Ideal S64 .f32) :
    k0_pay1 x0 x2 x7 x9 x12 x15 = combine (M := 4000) (K := 64) (N := 64) x0 x7 x2 x9 x12 x15 :=
  block_eq_combine (M := 4000) (K := 64) (N := 64) x0 x2 x7 x9 x12 x15 _ _ _ _ _ _ _ _

/-- What point t writes back is block t of the layer of the whole arrays. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz2]
  simp only [View.ld_unit_zero (S := S4000x64) hz2, View.ld_unit_zero (S := S4000x1) hz2,
    View.ld_unit_zero (S := S64x64) hz2, View.ld_unit_zero (S := S64) hz1]
  rw [pay_eq, blk3_eq V c t, blk4_eq V c t, blk5_eq V c t]
  obtain ⟨-, -, -, -, -, -, -, -, -, -, -, e0, e1⟩ := idx_facts t
  funext j
  obtain ⟨p, q, rfl⟩ : ∃ (p : Fin 4000) (q : Fin 64), j = ix2 p q := ⟨j 0, j 1, eq_ix2 j⟩
  have hemb : ((cfg0.win 6).blk t).view.emb (ix2 p q) = (ix2 (row t p) q : S100000x64.Idx) := by
    funext a
    apply Fin.ext
    match a with
    | ⟨0, _⟩ => show win0_6.index t 0 * 4000 + 1 * p.val = 4000 * t.val + p.val; rw [e0]; omega
    | ⟨1, _⟩ => show win0_6.index t 1 * 64 + 1 * q.val = q.val; rw [e1]; omega
  show combine (M := 4000) (K := 64) (N := 64) (iblk0 V c 0 t) (iblk0 V c 1 t) (iblk0 V c 2 t) (V c main_v23) (V c main_v27) (V c main_v25) (ix2 p q)
    = out V c (((cfg0.win 6).blk t).view.emb (ix2 p q))
  rw [hemb]
  exact combine_rows _ _ _ _ _ _ _ _ _ p (row t p) q (fun k => blk0_apply V c t p k) (fun k => blk1_apply V c t p k)
    (blk2_apply V c t p)

/-- Membership in point t's block of the result array, by coordinates. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v28).slice (win0_6.rect t)).set ↔ _
  rw [View.set_slice_whole, Rect.mem_set_unit]
  exact Iff.rfl

/-- Every row lies in the block of the point  row / 4000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨-, -, -, -, -, -, -, -, -, -, -, e0, e1⟩ := idx_facts t
  refine ⟨t, flush0_6 t, ?_⟩
  rw [mem_blk]
  intro a
  match a with
  | ⟨0, _⟩ =>
    show win0_6.index t 0 * 4000 ≤ (i 0).val ∧ (i 0).val < win0_6.index t 0 * 4000 + 4000
    rw [e0]
    show (i 0).val / 4000 * 4000 ≤ (i 0).val ∧ (i 0).val < (i 0).val / 4000 * 4000 + 4000
    omega
  | ⟨1, _⟩ =>
    show win0_6.index t 1 * 64 ≤ (i 1).val ∧ (i 1).val < win0_6.index t 1 * 64 + 64
    rw [e1]
    omega

/-- The result array after the launch is the layer of the arrays the launch found. -/
theorem final (c : Dev nD) : (dat0 V c).arrAt 6 cfg0.N = out V c :=
  (dat0 V c).arrAt_eq_of_cover 6 (out V c) (fun t _ => flushed_eq V c t) cover

end Cert.KernelIdeal.Layer0

end
-- ==== Proof.Region1.lean ====
/-
  The second layer's launch, as one whole-array function.

  The launch walks 25 blocks of 4000 rows.  At block t the body reads rows 4000·t … 4000·t + 3999 of the summed
  messages, of the features and of the degree column, and the whole weight matrices and bias, and writes those rows of
  the result.  A layer's row depends on its own rows of the inputs only, so the 25 blocks laid end to end are the layer
  applied to the whole arrays.
-/
import proofs.«110137_j62277025792168_2_alg».proof.Proof.Gen.KernelIdeal.Frame
import proofs.«110137_j62277025792168_2_alg».proof.Proof.LibMeanLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen Cert.Sage Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block t, the weights at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 4000·t + p of the array. -/
def row (t : Fin cfg1.N) (p : Fin 4000) : Fin 100000 :=
  ⟨4000 * t.val + p.val, by have h1 : t.val < 25 := lt_of_lt_of_eq t.isLt N_1; have := p.isLt; omega⟩

/-- The layer applied to the arrays as the launch finds them. -/
def out (c : Dev nD) : Buf (Elt Ideal) ((c : Thread nD τ).loc main_v46) :=
  combine (M := 100000) (K := 64) (N := 64) (V c main_v39) (V c main_v28) (V c main_v9) (V c main_v41) (V c main_v45) (V c main_v43)

/-- The block of the summed messages at point t. -/
theorem blk0_apply (c : Dev nD) (t : Fin cfg1.N) (p : Fin 4000) (k : Fin 64) :
    (iblk1 V c 0 t : Vec Ideal S4000x64 .f32) (ix2 p k) = (V c main_v39 : S100000x64.Idx → EReal) (ix2 (row t p) k) := by
  obtain ⟨e0, e1, -⟩ := idx_facts t
  unfold iblk1
  rw [View.read_apply]
  show V c main_v39 _ = V c main_v39 _
  congr 1
  funext a
  apply Fin.ext
  match a with
  | ⟨0, _⟩ => show win1_0.index t 0 * 4000 + 1 * p.val = 4000 * t.val + p.val; rw [e0]; omega
  | ⟨1, _⟩ => show win1_0.index t 1 * 64 + 1 * k.val = k.val; rw [e1]; omega

/-- The block of the features at point t. -/
theorem blk1_apply (c : Dev nD) (t : Fin cfg1.N) (p : Fin 4000) (k : Fin 64) :
    (iblk1 V c 1 t : Vec Ideal S4000x64 .bf16) (ix2 p k) = (V c main_v28 : S100000x64.Idx → EReal) (ix2 (row t p) k) := by
  obtain ⟨-, -, e0, e1, -⟩ := idx_facts t
  unfold iblk1
  rw [View.read_apply]
  show V c main_v28 _ = V c main_v28 _
  congr 1
  funext a
  apply Fin.ext
  match a with
  | ⟨0, _⟩ => show win1_1.index t 0 * 4000 + 1 * p.val = 4000 * t.val + p.val; rw [e0]; omega
  | ⟨1, _⟩ => show win1_1.index t 1 * 64 + 1 * k.val = k.val; rw [e1]; omega

/-- The block of the degree column at point t. -/
theorem blk2_apply (c : Dev nD) (t : Fin cfg1.N) (p : Fin 4000) :
    (iblk1 V c 2 t : Vec Ideal S4000x1 .f32) (ix2 p (0 : Fin 1)) = (V c main_v9 : S100000x1.Idx → EReal) (ix2 (row t p) (0 : Fin 1)) := by
  obtain ⟨-, -, -, -, e0, e1, -⟩ := idx_facts t
  unfold iblk1
  rw [View.read_apply]
  show V c main_v9 _ = V c main_v9 _
  congr 1
  funext a
  apply Fin.ext
  match a with
  | ⟨0, _⟩ => show win1_2.index t 0 * 4000 + 1 * p.val = 4000 * t.val + p.val; rw [e0]; omega
  | ⟨1, _⟩ => show win1_2.index t 1 * 1 + 1 * 0 = 0; rw [e1]

/-- The weight and bias windows hold their whole arrays at every point. -/
theorem blk3_eq (c : Dev nD) (t : Fin cfg1.N) : (iblk1 V c 3 t : Vec Ideal S64x64 .f32) = (V c main_v41 : S64x64.Idx → EReal) := by
  obtain ⟨-, -, -, -, -, -, e0, e1, -⟩ := idx_facts t
  funext j
  unfold iblk1
  rw [View.read_apply]
  show V c main_v41 _ = V c main_v41 _
  congr 1
  funext a
  apply Fin.ext
  match a with
  | ⟨0, _⟩ => show win1_3.index t 0 * 64 + 1 * (j 0).val = (j 0).val; rw [e0]; omega
  | ⟨1, _⟩ => show win1_3.index t 1 * 64 + 1 * (j 1).val = (j 1).val; rw [e1]; omega

theorem blk4_eq (c : Dev nD) (t : Fin cfg1.N) : (iblk1 V c 4 t : Vec Ideal S64 .f32) = (V c main_v43 : S64.Idx → EReal) := by
  obtain ⟨-, -, -, -, -, -, -, -, e0, -⟩ := idx_facts t
  funext j
  unfold iblk1
  rw [View.read_apply]
  show V c main_v43 _ = V c main_v43 _
  congr 1
  funext a
  apply Fin.ext
  match a with
  | ⟨0, _⟩ => show win1_4.index t 0 * 64 + 1 * (j 0).val = (j 0).val; rw [e0]; omega

theorem blk5_eq (c : Dev nD) (t : Fin cfg1.N) : (iblk1 V c 5 t : Vec Ideal S64x64 .f32) = (V c main_v45 : S64x64.Idx → EReal) := by
  obtain ⟨-, -, -, -, -, -, -, -, -, e0, e1, -⟩ := idx_facts t
  funext j
  unfold iblk1
  rw [View.read_apply]
  show V c main_v45 _ = V c main_v45 _
  congr 1
  funext a
  apply Fin.ext
  match a with
  | ⟨0, _⟩ => show win1_5.index t 0 * 64 + 1 * (j 0).val = (j 0).val; rw [e0]; omega
  | ⟨1, _⟩ => show win1_5.index t 1 * 64 + 1 * (j 1).val = (j 1).val; rw [e1]; omega

/-- The body's stored value is the layer of its loaded blocks. -/
theorem pay_eq (x0 : Vec Ideal S4000x64 .f32) (x2 : Vec Ideal S4000x1 .f32) (x7 : Vec Ideal S4000x64 .bf16)
    (x9 x12 : Vec Ideal S64x64 .f32) (x15 : Vec Ideal S64 .f32) :
    k1_pay1 x0 x2 x7 x9 x12 x15 = combine (M := 4000) (K := 64) (N := 64) x0 x7 x2 x9 x12 x15 :=
  block_eq_combine (M := 4000) (K := 64) (N := 64) x0 x2 x7 x9 x12 x15 _ _ _ _ _ _ _ _

/-- What point t writes back is block t of the layer of the whole arrays. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz2]
  simp only [View.ld_unit_zero (S := S4000x64) hz2, View.ld_unit_zero (S := S4000x1) hz2,
    View.ld_unit_zero (S := S64x64) hz2, View.ld_unit_zero (S := S64) hz1]
  rw [pay_eq, blk3_eq V c t, blk4_eq V c t, blk5_eq V c t]
  obtain ⟨-, -, -, -, -, -, -, -, -, -, -, e0, e1⟩ := idx_facts t
  funext j
  obtain ⟨p, q, rfl⟩ : ∃ (p : Fin 4000) (q : Fin 64), j = ix2 p q := ⟨j 0, j 1, eq_ix2 j⟩
  have hemb : ((cfg1.win 6).blk t).view.emb (ix2 p q) = (ix2 (row t p) q : S100000x64.Idx) := by
    funext a
    apply Fin.ext
    match a with
    | ⟨0, _⟩ => show win1_6.index t 0 * 4000 + 1 * p.val = 4000 * t.val + p.val; rw [e0]; omega
    | ⟨1, _⟩ => show win1_6.index t 1 * 64 + 1 * q.val = q.val; rw [e1]; omega
  show combine (M := 4000) (K := 64) (N := 64) (iblk1 V c 0 t) (iblk1 V c 1 t) (iblk1 V c 2 t) (V c main_v41) (V c main_v45) (V c main_v43) (ix2 p q)
    = out V c (((cfg1.win 6).blk t).view.emb (ix2 p q))
  rw [hemb]
  exact combine_rows _ _ _ _ _ _ _ _ _ p (row t p) q (fun k => blk0_apply V c t p k) (fun k => blk1_apply V c t p k)
    (blk2_apply V c t p)

/-- Membership in point t's block of the result array, by coordinates. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v46).slice (win1_6.rect t)).set ↔ _
  rw [View.set_slice_whole, Rect.mem_set_unit]
  exact Iff.rfl

/-- Every row lies in the block of the point  row / 4000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  obtain ⟨-, -, -, -, -, -, -, -, -, -, -, e0, e1⟩ := idx_facts t
  refine ⟨t, flush1_6 t, ?_⟩
  rw [mem_blk]
  intro a
  match a with
  | ⟨0, _⟩ =>
    show win1_6.index t 0 * 4000 ≤ (i 0).val ∧ (i 0).val < win1_6.index t 0 * 4000 + 4000
    rw [e0]
    show (i 0).val / 4000 * 4000 ≤ (i 0).val ∧ (i 0).val < (i 0).val / 4000 * 4000 + 4000
    omega
  | ⟨1, _⟩ =>
    show win1_6.index t 1 * 64 ≤ (i 1).val ∧ (i 1).val < win1_6.index t 1 * 64 + 64
    rw [e1]
    omega

/-- The result array after the launch is the layer of the arrays the launch found. -/
theorem final (c : Dev nD) : (dat1 V c).arrAt 6 cfg1.N = out V c :=
  (dat1 V c).arrAt_eq_of_cover 6 (out V c) (fun t _ => flushed_eq V c t) cover

end Cert.KernelIdeal.Layer1

end
-- ==== Proof.Region2.lean ====
/-
  The third layer's launch, as one whole-array function.

  The launch walks 25 blocks of 4000 rows.  At block t the body reads rows 4000·t … 4000·t + 3999 of the summed
  messages, of the features and of the degree column, and the whole weight matrices and bias, and writes those rows of
  the result.  A layer's row depends on its own rows of the inputs only, so the 25 blocks laid end to end are the layer
  applied to the whole arrays.
-/
import proofs.«110137_j62277025792168_2_alg».proof.Proof.Gen.KernelIdeal.Frame
import proofs.«110137_j62277025792168_2_alg».proof.Proof.LibMeanLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen Cert.Sage Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block t, the weights at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is row 4000·t + p of the array. -/
def row (t : Fin cfg2.N) (p : Fin 4000) : Fin 100000 :=
  ⟨4000 * t.val + p.val, by have h1 : t.val < 25 := lt_of_lt_of_eq t.isLt N_2; have := p.isLt; omega⟩

/-- The layer applied to the arrays as the launch finds them. -/
def out (c : Dev nD) : Buf (Elt Ideal) ((c : Thread nD τ).loc main_v64) :=
  combine (M := 100000) (K := 64) (N := 64) (V c main_v57) (V c main_v46) (V c main_v9) (V c main_v59) (V c main_v63) (V c main_v61)

/-- The block of the summed messages at point t. -/
theorem blk0_apply (c : Dev nD) (t : Fin cfg2.N) (p : Fin 4000) (k : Fin 64) :
    (iblk2 V c 0 t : Vec Ideal S4000x64 .f32) (ix2 p k) = (V c main_v57 : S100000x64.Idx → EReal) (ix2 (row t p) k) := by
  obtain ⟨e0, e1, -⟩ := idx_facts t
  unfold iblk2
  rw [View.read_apply]
  show V c main_v57 _ = V c main_v57 _
  congr 1
  funext a
  apply Fin.ext
  match a with
  | ⟨0, _⟩ => show win2_0.index t 0 * 4000 + 1 * p.val = 4000 * t.val + p.val; rw [e0]; omega
  | ⟨1, _⟩ => show win2_0.index t 1 * 64 + 1 * k.val = k.val; rw [e1]; omega

/-- The block of the features at point t. -/
theorem blk1_apply (c : Dev nD) (t : Fin cfg2.N) (p : Fin 4000) (k : Fin 64) :
    (iblk2 V c 1 t : Vec Ideal S4000x64 .bf16) (ix2 p k) = (V c main_v46 : S100000x64.Idx → EReal) (ix2 (row t p) k) := by
  obtain ⟨-, -, e0, e1, -⟩ := idx_facts t
  unfold iblk2
  rw [View.read_apply]
  show V c main_v46 _ = V c main_v46 _
  congr 1
  funext a
  apply Fin.ext
  match a with
  | ⟨0, _⟩ => show win2_1.index t 0 * 4000 + 1 * p.val = 4000 * t.val + p.val; rw [e0]; omega
  | ⟨1, _⟩ => show win2_1.index t 1 * 64 + 1 * k.val = k.val; rw [e1]; omega

/-- The block of the degree column at point t. -/
theorem blk2_apply (c : Dev nD) (t : Fin cfg2.N) (p : Fin 4000) :
    (iblk2 V c 2 t : Vec Ideal S4000x1 .f32) (ix2 p (0 : Fin 1)) = (V c main_v9 : S100000x1.Idx → EReal) (ix2 (row t p) (0 : Fin 1)) := by
  obtain ⟨-, -, -, -, e0, e1, -⟩ := idx_facts t
  unfold iblk2
  rw [View.read_apply]
  show V c main_v9 _ = V c main_v9 _
  congr 1
  funext a
  apply Fin.ext
  match a with
  | ⟨0, _⟩ => show win2_2.index t 0 * 4000 + 1 * p.val = 4000 * t.val + p.val; rw [e0]; omega
  | ⟨1, _⟩ => show win2_2.index t 1 * 1 + 1 * 0 = 0; rw [e1]

/-- The weight and bias windows hold their whole arrays at every point. -/
theorem blk3_eq (c : Dev nD) (t : Fin cfg2.N) : (iblk2 V c 3 t : Vec Ideal S64x64 .f32) = (V c main_v59 : S64x64.Idx → EReal) := by
  obtain ⟨-, -, -, -, -, -, e0, e1, -⟩ := idx_facts t
  funext j
  unfold iblk2
  rw [View.read_apply]
  show V c main_v59 _ = V c main_v59 _
  congr 1
  funext a
  apply Fin.ext
  match a with
  | ⟨0, _⟩ => show win2_3.index t 0 * 64 + 1 * (j 0).val = (j 0).val; rw [e0]; omega
  | ⟨1, _⟩ => show win2_3.index t 1 * 64 + 1 * (j 1).val = (j 1).val; rw [e1]; omega

theorem blk4_eq (c : Dev nD) (t : Fin cfg2.N) : (iblk2 V c 4 t : Vec Ideal S64 .f32) = (V c main_v61 : S64.Idx → EReal) := by
  obtain ⟨-, -, -, -, -, -, -, -, e0, -⟩ := idx_facts t
  funext j
  unfold iblk2
  rw [View.read_apply]
  show V c main_v61 _ = V c main_v61 _
  congr 1
  funext a
  apply Fin.ext
  match a with
  | ⟨0, _⟩ => show win2_4.index t 0 * 64 + 1 * (j 0).val = (j 0).val; rw [e0]; omega

theorem blk5_eq (c : Dev nD) (t : Fin cfg2.N) : (iblk2 V c 5 t : Vec Ideal S64x64 .f32) = (V c main_v63 : S64x64.Idx → EReal) := by
  obtain ⟨-, -, -, -, -, -, -, -, -, e0, e1, -⟩ := idx_facts t
  funext j
  unfold iblk2
  rw [View.read_apply]
  show V c main_v63 _ = V c main_v63 _
  congr 1
  funext a
  apply Fin.ext
  match a with
  | ⟨0, _⟩ => show win2_5.index t 0 * 64 + 1 * (j 0).val = (j 0).val; rw [e0]; omega
  | ⟨1, _⟩ => show win2_5.index t 1 * 64 + 1 * (j 1).val = (j 1).val; rw [e1]; omega

/-- The body's stored value is the layer of its loaded blocks. -/
theorem pay_eq (x0 : Vec Ideal S4000x64 .f32) (x2 : Vec Ideal S4000x1 .f32) (x7 : Vec Ideal S4000x64 .bf16)
    (x9 x12 : Vec Ideal S64x64 .f32) (x15 : Vec Ideal S64 .f32) :
    k2_pay1 x0 x2 x7 x9 x12 x15 = combine (M := 4000) (K := 64) (N := 64) x0 x7 x2 x9 x12 x15 :=
  block_eq_combine (M := 4000) (K := 64) (N := 64) x0 x2 x7 x9 x12 x15 _ _ _ _ _ _ _ _

/-- What point t writes back is block t of the layer of the whole arrays. -/
theorem flushed_eq (c : Dev nD) (t : Fin cfg2.N) :
    (dat2 V c).flushed 6 t = ((cfg2.win 6).blk t).view.read (Elt Ideal) (out V c) := by
  show (cfg2.win 6).cut (grid2.coords t) ((dat2 V c).after 6 t) = _
  rw [after2_6]
  unfold out2_6
  rw [View.canon_unit_zero hz2]
  simp only [View.ld_unit_zero (S := S4000x64) hz2, View.ld_unit_zero (S := S4000x1) hz2,
    View.ld_unit_zero (S := S64x64) hz2, View.ld_unit_zero (S := S64) hz1]
  rw [pay_eq, blk3_eq V c t, blk4_eq V c t, blk5_eq V c t]
  obtain ⟨-, -, -, -, -, -, -, -, -, -, -, e0, e1⟩ := idx_facts t
  funext j
  obtain ⟨p, q, rfl⟩ : ∃ (p : Fin 4000) (q : Fin 64), j = ix2 p q := ⟨j 0, j 1, eq_ix2 j⟩
  have hemb : ((cfg2.win 6).blk t).view.emb (ix2 p q) = (ix2 (row t p) q : S100000x64.Idx) := by
    funext a
    apply Fin.ext
    match a with
    | ⟨0, _⟩ => show win2_6.index t 0 * 4000 + 1 * p.val = 4000 * t.val + p.val; rw [e0]; omega
    | ⟨1, _⟩ => show win2_6.index t 1 * 64 + 1 * q.val = q.val; rw [e1]; omega
  show combine (M := 4000) (K := 64) (N := 64) (iblk2 V c 0 t) (iblk2 V c 1 t) (iblk2 V c 2 t) (V c main_v59) (V c main_v63) (V c main_v61) (ix2 p q)
    = out V c (((cfg2.win 6).blk t).view.emb (ix2 p q))
  rw [hemb]
  exact combine_rows _ _ _ _ _ _ _ _ _ p (row t p) q (fun k => blk0_apply V c t p k) (fun k => blk1_apply V c t p k)
    (blk2_apply V c t p)

/-- Membership in point t's block of the result array, by coordinates. -/
theorem mem_blk (t : Fin cfg2.N) (i : S100000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v64).slice (win2_6.rect t)).set ↔ _
  rw [View.set_slice_whole, Rect.mem_set_unit]
  exact Iff.rfl

/-- Every row lies in the block of the point  row / 4000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 25 := N_2
  let t : Fin cfg2.N := ⟨(i 0).val / 4000, by rw [hN]; omega⟩
  obtain ⟨-, -, -, -, -, -, -, -, -, -, -, e0, e1⟩ := idx_facts t
  refine ⟨t, flush2_6 t, ?_⟩
  rw [mem_blk]
  intro a
  match a with
  | ⟨0, _⟩ =>
    show win2_6.index t 0 * 4000 ≤ (i 0).val ∧ (i 0).val < win2_6.index t 0 * 4000 + 4000
    rw [e0]
    show (i 0).val / 4000 * 4000 ≤ (i 0).val ∧ (i 0).val < (i 0).val / 4000 * 4000 + 4000
    omega
  | ⟨1, _⟩ =>
    show win2_6.index t 1 * 64 ≤ (i 1).val ∧ (i 1).val < win2_6.index t 1 * 64 + 64
    rw [e1]
    omega

/-- The result array after the launch is the layer of the arrays the launch found. -/
theorem final (c : Dev nD) : (dat2 V c).arrAt 6 cfg2.N = out V c :=
  (dat2 V c).arrAt_eq_of_cover 6 (out V c) (fun t _ => flushed_eq V c t) cover

end Cert.KernelIdeal.Layer2

end
-- ==== Proof.Region3.lean ====
/-
  The fourth layer's launch, as one whole-array function.

  The launch walks 25 blocks of 4000 rows.  At block t the body reads rows 4000·t … 4000·t + 3999 of the summed
  messages, of the features and of the degree column, and the whole weight matrices and bias, and writes those rows of
  the result.  A layer's row depends on its own rows of the inputs only, so the 25 blocks laid end to end are the layer
  applied to the whole arrays.
-/
import proofs.«110137_j62277025792168_2_alg».proof.Proof.Gen.KernelIdeal.Frame
import proofs.«110137_j62277025792168_2_alg».proof.Proof.LibMeanLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Layer3

open Cert.KernelIdeal Cert.KernelIdeal.Gen Cert.Sage Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block t, the weights at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of block t is row 4000·t + p of the array. -/
def row (t : Fin cfg3.N) (p : Fin 4000) : Fin 100000 :=
  ⟨4000 * t.val + p.val, by have h1 : t.val < 25 := lt_of_lt_of_eq t.isLt N_3; have := p.isLt; omega⟩

/-- The layer applied to the arrays as the launch finds them. -/
def out (c : Dev nD) : Buf (Elt Ideal) ((c : Thread nD τ).loc main_v82) :=
  combine (M := 100000) (K := 64) (N := 64) (V c main_v75) (V c main_v64) (V c main_v9) (V c main_v77) (V c main_v81) (V c main_v79)

/-- The block of the summed messages at point t. -/
theorem blk0_apply (c : Dev nD) (t : Fin cfg3.N) (p : Fin 4000) (k : Fin 64) :
    (iblk3 V c 0 t : Vec Ideal S4000x64 .f32) (ix2 p k) = (V c main_v75 : S100000x64.Idx → EReal) (ix2 (row t p) k) := by
  obtain ⟨e0, e1, -⟩ := idx_facts t
  unfold iblk3
  rw [View.read_apply]
  show V c main_v75 _ = V c main_v75 _
  congr 1
  funext a
  apply Fin.ext
  match a with
  | ⟨0, _⟩ => show win3_0.index t 0 * 4000 + 1 * p.val = 4000 * t.val + p.val; rw [e0]; omega
  | ⟨1, _⟩ => show win3_0.index t 1 * 64 + 1 * k.val = k.val; rw [e1]; omega

/-- The block of the features at point t. -/
theorem blk1_apply (c : Dev nD) (t : Fin cfg3.N) (p : Fin 4000) (k : Fin 64) :
    (iblk3 V c 1 t : Vec Ideal S4000x64 .bf16) (ix2 p k) = (V c main_v64 : S100000x64.Idx → EReal) (ix2 (row t p) k) := by
  obtain ⟨-, -, e0, e1, -⟩ := idx_facts t
  unfold iblk3
  rw [View.read_apply]
  show V c main_v64 _ = V c main_v64 _
  congr 1
  funext a
  apply Fin.ext
  match a with
  | ⟨0, _⟩ => show win3_1.index t 0 * 4000 + 1 * p.val = 4000 * t.val + p.val; rw [e0]; omega
  | ⟨1, _⟩ => show win3_1.index t 1 * 64 + 1 * k.val = k.val; rw [e1]; omega

/-- The block of the degree column at point t. -/
theorem blk2_apply (c : Dev nD) (t : Fin cfg3.N) (p : Fin 4000) :
    (iblk3 V c 2 t : Vec Ideal S4000x1 .f32) (ix2 p (0 : Fin 1)) = (V c main_v9 : S100000x1.Idx → EReal) (ix2 (row t p) (0 : Fin 1)) := by
  obtain ⟨-, -, -, -, e0, e1, -⟩ := idx_facts t
  unfold iblk3
  rw [View.read_apply]
  show V c main_v9 _ = V c main_v9 _
  congr 1
  funext a
  apply Fin.ext
  match a with
  | ⟨0, _⟩ => show win3_2.index t 0 * 4000 + 1 * p.val = 4000 * t.val + p.val; rw [e0]; omega
  | ⟨1, _⟩ => show win3_2.index t 1 * 1 + 1 * 0 = 0; rw [e1]

/-- The weight and bias windows hold their whole arrays at every point. -/
theorem blk3_eq (c : Dev nD) (t : Fin cfg3.N) : (iblk3 V c 3 t : Vec Ideal S64x64 .f32) = (V c main_v77 : S64x64.Idx → EReal) := by
  obtain ⟨-, -, -, -, -, -, e0, e1, -⟩ := idx_facts t
  funext j
  unfold iblk3
  rw [View.read_apply]
  show V c main_v77 _ = V c main_v77 _
  congr 1
  funext a
  apply Fin.ext
  match a with
  | ⟨0, _⟩ => show win3_3.index t 0 * 64 + 1 * (j 0).val = (j 0).val; rw [e0]; omega
  | ⟨1, _⟩ => show win3_3.index t 1 * 64 + 1 * (j 1).val = (j 1).val; rw [e1]; omega

theorem blk4_eq (c : Dev nD) (t : Fin cfg3.N) : (iblk3 V c 4 t : Vec Ideal S64 .f32) = (V c main_v79 : S64.Idx → EReal) := by
  obtain ⟨-, -, -, -, -, -, -, -, e0, -⟩ := idx_facts t
  funext j
  unfold iblk3
  rw [View.read_apply]
  show V c main_v79 _ = V c main_v79 _
  congr 1
  funext a
  apply Fin.ext
  match a with
  | ⟨0, _⟩ => show win3_4.index t 0 * 64 + 1 * (j 0).val = (j 0).val; rw [e0]; omega

theorem blk5_eq (c : Dev nD) (t : Fin cfg3.N) : (iblk3 V c 5 t : Vec Ideal S64x64 .f32) = (V c main_v81 : S64x64.Idx → EReal) := by
  obtain ⟨-, -, -, -, -, -, -, -, -, e0, e1, -⟩ := idx_facts t
  funext j
  unfold iblk3
  rw [View.read_apply]
  show V c main_v81 _ = V c main_v81 _
  congr 1
  funext a
  apply Fin.ext
  match a with
  | ⟨0, _⟩ => show win3_5.index t 0 * 64 + 1 * (j 0).val = (j 0).val; rw [e0]; omega
  | ⟨1, _⟩ => show win3_5.index t 1 * 64 + 1 * (j 1).val = (j 1).val; rw [e1]; omega

/-- The body's stored value is the layer of its loaded blocks. -/
theorem pay_eq (x0 : Vec Ideal S4000x64 .f32) (x2 : Vec Ideal S4000x1 .f32) (x7 : Vec Ideal S4000x64 .bf16)
    (x9 x12 : Vec Ideal S64x64 .f32) (x15 : Vec Ideal S64 .f32) :
    k3_pay1 x0 x2 x7 x9 x12 x15 = combine (M := 4000) (K := 64) (N := 64) x0 x7 x2 x9 x12 x15 :=
  block_eq_combine (M := 4000) (K := 64) (N := 64) x0 x2 x7 x9 x12 x15 _ _ _ _ _ _ _ _

/-- What point t writes back is block t of the layer of the whole arrays. -/
theorem flushed_eq (c : Dev nD) (t : Fin cfg3.N) :
    (dat3 V c).flushed 6 t = ((cfg3.win 6).blk t).view.read (Elt Ideal) (out V c) := by
  show (cfg3.win 6).cut (grid3.coords t) ((dat3 V c).after 6 t) = _
  rw [after3_6]
  unfold out3_6
  rw [View.canon_unit_zero hz2]
  simp only [View.ld_unit_zero (S := S4000x64) hz2, View.ld_unit_zero (S := S4000x1) hz2,
    View.ld_unit_zero (S := S64x64) hz2, View.ld_unit_zero (S := S64) hz1]
  rw [pay_eq, blk3_eq V c t, blk4_eq V c t, blk5_eq V c t]
  obtain ⟨-, -, -, -, -, -, -, -, -, -, -, e0, e1⟩ := idx_facts t
  funext j
  obtain ⟨p, q, rfl⟩ : ∃ (p : Fin 4000) (q : Fin 64), j = ix2 p q := ⟨j 0, j 1, eq_ix2 j⟩
  have hemb : ((cfg3.win 6).blk t).view.emb (ix2 p q) = (ix2 (row t p) q : S100000x64.Idx) := by
    funext a
    apply Fin.ext
    match a with
    | ⟨0, _⟩ => show win3_6.index t 0 * 4000 + 1 * p.val = 4000 * t.val + p.val; rw [e0]; omega
    | ⟨1, _⟩ => show win3_6.index t 1 * 64 + 1 * q.val = q.val; rw [e1]; omega
  show combine (M := 4000) (K := 64) (N := 64) (iblk3 V c 0 t) (iblk3 V c 1 t) (iblk3 V c 2 t) (V c main_v77) (V c main_v81) (V c main_v79) (ix2 p q)
    = out V c (((cfg3.win 6).blk t).view.emb (ix2 p q))
  rw [hemb]
  exact combine_rows _ _ _ _ _ _ _ _ _ p (row t p) q (fun k => blk0_apply V c t p k) (fun k => blk1_apply V c t p k)
    (blk2_apply V c t p)

/-- Membership in point t's block of the result array, by coordinates. -/
theorem mem_blk (t : Fin cfg3.N) (i : S100000x64.Idx) :
    i ∈ ((cfg3.win 6).blk t).view.set ↔ ∀ a : Fin 2, win3_6.index t a * S4000x64.size a ≤ (i a).val ∧ (i a).val < win3_6.index t a * S4000x64.size a + S4000x64.size a := by
  show i ∈ ((View.whole main_v82).slice (win3_6.rect t)).set ↔ _
  rw [View.set_slice_whole, Rect.mem_set_unit]
  exact Iff.rfl

/-- Every row lies in the block of the point  row / 4000. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 25 := N_3
  let t : Fin cfg3.N := ⟨(i 0).val / 4000, by rw [hN]; omega⟩
  obtain ⟨-, -, -, -, -, -, -, -, -, -, -, e0, e1⟩ := idx_facts t
  refine ⟨t, flush3_6 t, ?_⟩
  rw [mem_blk]
  intro a
  match a with
  | ⟨0, _⟩ =>
    show win3_6.index t 0 * 4000 ≤ (i 0).val ∧ (i 0).val < win3_6.index t 0 * 4000 + 4000
    rw [e0]
    show (i 0).val / 4000 * 4000 ≤ (i 0).val ∧ (i 0).val < (i 0).val / 4000 * 4000 + 4000
    omega
  | ⟨1, _⟩ =>
    show win3_6.index t 1 * 64 ≤ (i 1).val ∧ (i 1).val < win3_6.index t 1 * 64 + 64
    rw [e1]
    omega

/-- The result array after the launch is the layer of the arrays the launch found. -/
theorem final (c : Dev nD) : (dat3 V c).arrAt 6 cfg3.N = out V c :=
  (dat3 V c).arrAt_eq_of_cover 6 (out V c) (fun t _ => flushed_eq V c t) cover

end Cert.KernelIdeal.Layer3

end
-- ==== Proof.Region4.lean ====
/-
  The fifth layer's launch, as one whole-array function.

  The launch walks 25 blocks of 4000 rows.  At block t the body reads rows 4000·t … 4000·t + 3999 of the summed
  messages, of the features and of the degree column, and the whole weight matrices and bias, and writes those rows of
  the result.  A layer's row depends on its own rows of the inputs only, so the 25 blocks laid end to end are the layer
  applied to the whole arrays.
-/
import proofs.«110137_j62277025792168_2_alg».proof.Proof.Gen.KernelIdeal.Frame
import proofs.«110137_j62277025792168_2_alg».proof.Proof.LibMeanLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Layer4

open Cert.KernelIdeal Cert.KernelIdeal.Gen Cert.Sage Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block t, the weights at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of block t is row 4000·t + p of the array. -/
def row (t : Fin cfg4.N) (p : Fin 4000) : Fin 100000 :=
  ⟨4000 * t.val + p.val, by have h1 : t.val < 25 := lt_of_lt_of_eq t.isLt N_4; have := p.isLt; omega⟩

/-- The layer applied to the arrays as the launch finds them. -/
def out (c : Dev nD) : Buf (Elt Ideal) ((c : Thread nD τ).loc main_v100) :=
  combine (M := 100000) (K := 64) (N := 64) (V c main_v93) (V c main_v82) (V c main_v9) (V c main_v95) (V c main_v99) (V c main_v97)

/-- The block of the summed messages at point t. -/
theorem blk0_apply (c : Dev nD) (t : Fin cfg4.N) (p : Fin 4000) (k : Fin 64) :
    (iblk4 V c 0 t : Vec Ideal S4000x64 .f32) (ix2 p k) = (V c main_v93 : S100000x64.Idx → EReal) (ix2 (row t p) k) := by
  obtain ⟨e0, e1, -⟩ := idx_facts t
  unfold iblk4
  rw [View.read_apply]
  show V c main_v93 _ = V c main_v93 _
  congr 1
  funext a
  apply Fin.ext
  match a with
  | ⟨0, _⟩ => show win4_0.index t 0 * 4000 + 1 * p.val = 4000 * t.val + p.val; rw [e0]; omega
  | ⟨1, _⟩ => show win4_0.index t 1 * 64 + 1 * k.val = k.val; rw [e1]; omega

/-- The block of the features at point t. -/
theorem blk1_apply (c : Dev nD) (t : Fin cfg4.N) (p : Fin 4000) (k : Fin 64) :
    (iblk4 V c 1 t : Vec Ideal S4000x64 .bf16) (ix2 p k) = (V c main_v82 : S100000x64.Idx → EReal) (ix2 (row t p) k) := by
  obtain ⟨-, -, e0, e1, -⟩ := idx_facts t
  unfold iblk4
  rw [View.read_apply]
  show V c main_v82 _ = V c main_v82 _
  congr 1
  funext a
  apply Fin.ext
  match a with
  | ⟨0, _⟩ => show win4_1.index t 0 * 4000 + 1 * p.val = 4000 * t.val + p.val; rw [e0]; omega
  | ⟨1, _⟩ => show win4_1.index t 1 * 64 + 1 * k.val = k.val; rw [e1]; omega

/-- The block of the degree column at point t. -/
theorem blk2_apply (c : Dev nD) (t : Fin cfg4.N) (p : Fin 4000) :
    (iblk4 V c 2 t : Vec Ideal S4000x1 .f32) (ix2 p (0 : Fin 1)) = (V c main_v9 : S100000x1.Idx → EReal) (ix2 (row t p) (0 : Fin 1)) := by
  obtain ⟨-, -, -, -, e0, e1, -⟩ := idx_facts t
  unfold iblk4
  rw [View.read_apply]
  show V c main_v9 _ = V c main_v9 _
  congr 1
  funext a
  apply Fin.ext
  match a with
  | ⟨0, _⟩ => show win4_2.index t 0 * 4000 + 1 * p.val = 4000 * t.val + p.val; rw [e0]; omega
  | ⟨1, _⟩ => show win4_2.index t 1 * 1 + 1 * 0 = 0; rw [e1]

/-- The weight and bias windows hold their whole arrays at every point. -/
theorem blk3_eq (c : Dev nD) (t : Fin cfg4.N) : (iblk4 V c 3 t : Vec Ideal S64x64 .f32) = (V c main_v95 : S64x64.Idx → EReal) := by
  obtain ⟨-, -, -, -, -, -, e0, e1, -⟩ := idx_facts t
  funext j
  unfold iblk4
  rw [View.read_apply]
  show V c main_v95 _ = V c main_v95 _
  congr 1
  funext a
  apply Fin.ext
  match a with
  | ⟨0, _⟩ => show win4_3.index t 0 * 64 + 1 * (j 0).val = (j 0).val; rw [e0]; omega
  | ⟨1, _⟩ => show win4_3.index t 1 * 64 + 1 * (j 1).val = (j 1).val; rw [e1]; omega

theorem blk4_eq (c : Dev nD) (t : Fin cfg4.N) : (iblk4 V c 4 t : Vec Ideal S64 .f32) = (V c main_v97 : S64.Idx → EReal) := by
  obtain ⟨-, -, -, -, -, -, -, -, e0, -⟩ := idx_facts t
  funext j
  unfold iblk4
  rw [View.read_apply]
  show V c main_v97 _ = V c main_v97 _
  congr 1
  funext a
  apply Fin.ext
  match a with
  | ⟨0, _⟩ => show win4_4.index t 0 * 64 + 1 * (j 0).val = (j 0).val; rw [e0]; omega

theorem blk5_eq (c : Dev nD) (t : Fin cfg4.N) : (iblk4 V c 5 t : Vec Ideal S64x64 .f32) = (V c main_v99 : S64x64.Idx → EReal) := by
  obtain ⟨-, -, -, -, -, -, -, -, -, e0, e1, -⟩ := idx_facts t
  funext j
  unfold iblk4
  rw [View.read_apply]
  show V c main_v99 _ = V c main_v99 _
  congr 1
  funext a
  apply Fin.ext
  match a with
  | ⟨0, _⟩ => show win4_5.index t 0 * 64 + 1 * (j 0).val = (j 0).val; rw [e0]; omega
  | ⟨1, _⟩ => show win4_5.index t 1 * 64 + 1 * (j 1).val = (j 1).val; rw [e1]; omega

/-- The body's stored value is the layer of its loaded blocks. -/
theorem pay_eq (x0 : Vec Ideal S4000x64 .f32) (x2 : Vec Ideal S4000x1 .f32) (x7 : Vec Ideal S4000x64 .bf16)
    (x9 x12 : Vec Ideal S64x64 .f32) (x15 : Vec Ideal S64 .f32) :
    k4_pay1 x0 x2 x7 x9 x12 x15 = combine (M := 4000) (K := 64) (N := 64) x0 x7 x2 x9 x12 x15 :=
  block_eq_combine (M := 4000) (K := 64) (N := 64) x0 x2 x7 x9 x12 x15 _ _ _ _ _ _ _ _

/-- What point t writes back is block t of the layer of the whole arrays. -/
theorem flushed_eq (c : Dev nD) (t : Fin cfg4.N) :
    (dat4 V c).flushed 6 t = ((cfg4.win 6).blk t).view.read (Elt Ideal) (out V c) := by
  show (cfg4.win 6).cut (grid4.coords t) ((dat4 V c).after 6 t) = _
  rw [after4_6]
  unfold out4_6
  rw [View.canon_unit_zero hz2]
  simp only [View.ld_unit_zero (S := S4000x64) hz2, View.ld_unit_zero (S := S4000x1) hz2,
    View.ld_unit_zero (S := S64x64) hz2, View.ld_unit_zero (S := S64) hz1]
  rw [pay_eq, blk3_eq V c t, blk4_eq V c t, blk5_eq V c t]
  obtain ⟨-, -, -, -, -, -, -, -, -, -, -, e0, e1⟩ := idx_facts t
  funext j
  obtain ⟨p, q, rfl⟩ : ∃ (p : Fin 4000) (q : Fin 64), j = ix2 p q := ⟨j 0, j 1, eq_ix2 j⟩
  have hemb : ((cfg4.win 6).blk t).view.emb (ix2 p q) = (ix2 (row t p) q : S100000x64.Idx) := by
    funext a
    apply Fin.ext
    match a with
    | ⟨0, _⟩ => show win4_6.index t 0 * 4000 + 1 * p.val = 4000 * t.val + p.val; rw [e0]; omega
    | ⟨1, _⟩ => show win4_6.index t 1 * 64 + 1 * q.val = q.val; rw [e1]; omega
  show combine (M := 4000) (K := 64) (N := 64) (iblk4 V c 0 t) (iblk4 V c 1 t) (iblk4 V c 2 t) (V c main_v95) (V c main_v99) (V c main_v97) (ix2 p q)
    = out V c (((cfg4.win 6).blk t).view.emb (ix2 p q))
  rw [hemb]
  exact combine_rows _ _ _ _ _ _ _ _ _ p (row t p) q (fun k => blk0_apply V c t p k) (fun k => blk1_apply V c t p k)
    (blk2_apply V c t p)

/-- Membership in point t's block of the result array, by coordinates. -/
theorem mem_blk (t : Fin cfg4.N) (i : S100000x64.Idx) :
    i ∈ ((cfg4.win 6).blk t).view.set ↔ ∀ a : Fin 2, win4_6.index t a * S4000x64.size a ≤ (i a).val ∧ (i a).val < win4_6.index t a * S4000x64.size a + S4000x64.size a := by
  show i ∈ ((View.whole main_v100).slice (win4_6.rect t)).set ↔ _
  rw [View.set_slice_whole, Rect.mem_set_unit]
  exact Iff.rfl

/-- Every row lies in the block of the point  row / 4000. -/
theorem cover (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 25 := N_4
  let t : Fin cfg4.N := ⟨(i 0).val / 4000, by rw [hN]; omega⟩
  obtain ⟨-, -, -, -, -, -, -, -, -, -, -, e0, e1⟩ := idx_facts t
  refine ⟨t, flush4_6 t, ?_⟩
  rw [mem_blk]
  intro a
  match a with
  | ⟨0, _⟩ =>
    show win4_6.index t 0 * 4000 ≤ (i 0).val ∧ (i 0).val < win4_6.index t 0 * 4000 + 4000
    rw [e0]
    show (i 0).val / 4000 * 4000 ≤ (i 0).val ∧ (i 0).val < (i 0).val / 4000 * 4000 + 4000
    omega
  | ⟨1, _⟩ =>
    show win4_6.index t 1 * 64 ≤ (i 1).val ∧ (i 1).val < win4_6.index t 1 * 64 + 64
    rw [e1]
    omega

/-- The result array after the launch is the layer of the arrays the launch found. -/
theorem final (c : Dev nD) : (dat4 V c).arrAt 6 cfg4.N = out V c :=
  (dat4 V c).arrAt_eq_of_cover 6 (out V c) (fun t _ => flushed_eq V c t) cover

end Cert.KernelIdeal.Layer4

end
-- ==== Proof.Region5.lean ====
/-
  The closing launch, as one whole-array function.

  The launch walks 5 blocks of 4000 rows of the flattened features (20000 rows of 320 numbers).  At block t the body reads
  rows 4000·t … 4000·t + 3999 and the whole weight column and bias, and writes those rows of the result.  A row of the
  closing layer depends on its own row of the features only, so the 5 blocks laid end to end are the closing layer
  applied to the whole array.
-/
import proofs.«110137_j62277025792168_2_alg».proof.Proof.Gen.KernelIdeal.Frame
import proofs.«110137_j62277025792168_2_alg».proof.Proof.LibMeanLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Closing

open Cert.KernelIdeal Cert.KernelIdeal.Gen Cert.Sage Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows sit at block t, the weights at block 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- Row p of block t is row 4000·t + p of the array. -/
def row (t : Fin cfg5.N) (p : Fin 4000) : Fin 20000 :=
  ⟨4000 * t.val + p.val, by have h1 : t.val < 5 := lt_of_lt_of_eq t.isLt N_5; have := p.isLt; omega⟩

/-- The closing layer applied to the arrays as the launch finds them. -/
def out (c : Dev nD) : Buf (Elt Ideal) ((c : Thread nD τ).loc main_v102) :=
  closing (M := 20000) (K := 320) (N := 1) (V c main_v101) (V c main_arg5) (V c main_arg6)

/-- The block of the flattened features at point t. -/
theorem blk0_apply (c : Dev nD) (t : Fin cfg5.N) (p : Fin 4000) (k : Fin 320) :
    (iblk5 V c 0 t : Vec Ideal S4000x320 .bf16) (ix2 p k) = (V c main_v101 : S20000x320.Idx → EReal) (ix2 (row t p) k) := by
  obtain ⟨e0, e1, -⟩ := idx_facts t
  unfold iblk5
  rw [View.read_apply]
  show V c main_v101 _ = V c main_v101 _
  congr 1
  funext a
  apply Fin.ext
  match a with
  | ⟨0, _⟩ => show win5_0.index t 0 * 4000 + 1 * p.val = 4000 * t.val + p.val; rw [e0]; omega
  | ⟨1, _⟩ => show win5_0.index t 1 * 320 + 1 * k.val = k.val; rw [e1]; omega

/-- The weight and bias windows hold their whole arrays at every point. -/
theorem blk1_eq (c : Dev nD) (t : Fin cfg5.N) : (iblk5 V c 1 t : Vec Ideal S320x1 .f32) = (V c main_arg5 : S320x1.Idx → EReal) := by
  obtain ⟨-, -, e0, e1, -⟩ := idx_facts t
  funext j
  unfold iblk5
  rw [View.read_apply]
  show V c main_arg5 _ = V c main_arg5 _
  congr 1
  funext a
  apply Fin.ext
  match a with
  | ⟨0, _⟩ => show win5_1.index t 0 * 320 + 1 * (j 0).val = (j 0).val; rw [e0]; omega
  | ⟨1, _⟩ => show win5_1.index t 1 * 1 + 1 * (j 1).val = (j 1).val; rw [e1]; omega

theorem blk2_eq (c : Dev nD) (t : Fin cfg5.N) : (iblk5 V c 2 t : Vec Ideal S1 .f32) = (V c main_arg6 : S1.Idx → EReal) := by
  obtain ⟨-, -, -, -, e0, -⟩ := idx_facts t
  funext j
  unfold iblk5
  rw [View.read_apply]
  show V c main_arg6 _ = V c main_arg6 _
  congr 1
  funext a
  apply Fin.ext
  match a with
  | ⟨0, _⟩ => show win5_2.index t 0 * 1 + 1 * (j 0).val = (j 0).val; rw [e0]; omega

/-- The body's stored value is the closing layer of its loaded blocks. -/
theorem pay_eq (x0 : Vec Ideal S4000x320 .bf16) (x2 : Vec Ideal S320x1 .f32) (x4 : Vec Ideal S1 .f32) :
    k5_pay1 x0 x2 x4 = closing (M := 4000) (K := 320) (N := 1) x0 x2 x4 :=
  block_eq_closing (M := 4000) (K := 320) (N := 1) x0 x2 x4 _ _ _ _

/-- What point t writes back is block t of the closing layer of the whole arrays. -/
theorem flushed_eq (c : Dev nD) (t : Fin cfg5.N) :
    (dat5 V c).flushed 3 t = ((cfg5.win 3).blk t).view.read (Elt Ideal) (out V c) := by
  show (cfg5.win 3).cut (grid5.coords t) ((dat5 V c).after 3 t) = _
  rw [after5_3]
  unfold out5_3
  rw [View.canon_unit_zero hz2]
  simp only [View.ld_unit_zero (S := S4000x320) hz2, View.ld_unit_zero (S := S320x1) hz2,
    View.ld_unit_zero (S := S1) hz1]
  rw [pay_eq, blk1_eq V c t, blk2_eq V c t]
  obtain ⟨-, -, -, -, -, e0, e1⟩ := idx_facts t
  funext j
  obtain ⟨p, q, rfl⟩ : ∃ (p : Fin 4000) (q : Fin 1), j = ix2 p q := ⟨j 0, j 1, eq_ix2 j⟩
  have hemb : ((cfg5.win 3).blk t).view.emb (ix2 p q) = (ix2 (row t p) q : S20000x1.Idx) := by
    funext a
    apply Fin.ext
    match a with
    | ⟨0, _⟩ => show win5_3.index t 0 * 4000 + 1 * p.val = 4000 * t.val + p.val; rw [e0]; omega
    | ⟨1, _⟩ => show win5_3.index t 1 * 1 + 1 * q.val = q.val; rw [e1]; omega
  show closing (M := 4000) (K := 320) (N := 1) (iblk5 V c 0 t) (V c main_arg5) (V c main_arg6) (ix2 p q)
    = out V c (((cfg5.win 3).blk t).view.emb (ix2 p q))
  rw [hemb]
  exact closing_rows _ _ _ _ p (row t p) q (fun k => blk0_apply V c t p k)

/-- Membership in point t's block of the result array, by coordinates. -/
theorem mem_blk (t : Fin cfg5.N) (i : S20000x1.Idx) :
    i ∈ ((cfg5.win 3).blk t).view.set ↔ ∀ a : Fin 2, win5_3.index t a * S4000x1.size a ≤ (i a).val ∧ (i a).val < win5_3.index t a * S4000x1.size a + S4000x1.size a := by
  show i ∈ ((View.whole main_v102).slice (win5_3.rect t)).set ↔ _
  rw [View.set_slice_whole, Rect.mem_set_unit]
  exact Iff.rfl

/-- Every row lies in the block of the point  row / 4000. -/
theorem cover (i : S20000x1.Idx) : ∃ t : Fin cfg5.N, (cfg5.win 3).flush t = true ∧ i ∈ ((cfg5.win 3).blk t).view.set := by
  have hi0 : (i 0).val < 20000 := (i 0).isLt
  have hi1 : (i 1).val < 1 := (i 1).isLt
  have hN : cfg5.N = 5 := N_5
  let t : Fin cfg5.N := ⟨(i 0).val / 4000, by rw [hN]; omega⟩
  obtain ⟨-, -, -, -, -, e0, e1⟩ := idx_facts t
  refine ⟨t, flush5_3 t, ?_⟩
  rw [mem_blk]
  intro a
  match a with
  | ⟨0, _⟩ =>
    show win5_3.index t 0 * 4000 ≤ (i 0).val ∧ (i 0).val < win5_3.index t 0 * 4000 + 4000
    rw [e0]
    show (i 0).val / 4000 * 4000 ≤ (i 0).val ∧ (i 0).val < (i 0).val / 4000 * 4000 + 4000
    omega
  | ⟨1, _⟩ =>
    show win5_3.index t 1 * 1 ≤ (i 1).val ∧ (i 1).val < win5_3.index t 1 * 1 + 1
    rw [e1]
    omega

/-- The result array after the launch is the closing layer of the arrays the launch found. -/
theorem final (c : Dev nD) : (dat5 V c).arrAt 3 cfg5.N = out V c :=
  (dat5 V c).arrAt_eq_of_cover 3 (out V c) (fun t _ => flushed_eq V c t) cover

end Cert.KernelIdeal.Closing

end
-- ==== Proof.Stretch0.lean ====
/-
  Host stretch 0 of the idealized kernel's program, read one buffer at a time: what each buffer the later launches and
  stretches use holds after the stretch, as a function of what the buffers held before it.
-/
import proofs.«110137_j62277025792168_2_alg».proof.Proof.Gen.KernelIdeal.Frame
import proofs.«110137_j62277025792168_2_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch0

open Cert.KernelIdeal Cert.KernelIdeal.Gen Cert.KernelIdeal.Net

variable (m : (ℓ : Loc nD τ sig) → Buf (Elt Ideal) ℓ) (ρ : Dev nD → PrngReg)

/-- The source ends. -/
theorem src (c : Dev nD) : W1 m ρ c (Proc.devRef .tc main_v1) = srcOf (m ((c : Thread nD τ).loc main_arg1)) := by
  show StableHlo.after hostOps0 (W0 m ρ c) (Proc.devRef .tc main_v1) = _
  after_results_simp
  rfl

/-- The destination ends. -/
theorem dst (c : Dev nD) : W1 m ρ c (Proc.devRef .tc main_v3) = dstOf (m ((c : Thread nD τ).loc main_arg1)) := by
  show StableHlo.after hostOps0 (W0 m ρ c) (Proc.devRef .tc main_v3) = _
  after_results_simp
  rfl

/-- The clamped in-degrees. -/
theorem deg (c : Dev nD) : V1 m ρ c main_v9 = degCol (dstOf (m ((c : Thread nD τ).loc main_arg1))) := by
  show StableHlo.after hostOps0 (W0 m ρ c) (Proc.devRef .tc main_v9) = _
  after_results_simp
  rfl

/-- The features entering the first layer: the argument, its change of float format keeping every value. -/
theorem feat (c : Dev nD) : V1 m ρ c main_v10 = (m ((c : Thread nD τ).loc main_arg0)) := by
  show StableHlo.after hostOps0 (W0 m ρ c) (Proc.devRef .tc main_v10) = _
  after_results_simp
  rfl

/-- The first layer's summed messages. -/
theorem msg (c : Dev nD) : V1 m ρ c main_v21 = msgOf (m ((c : Thread nD τ).loc main_arg0)) (srcOf (m ((c : Thread nD τ).loc main_arg1))) (dstOf (m ((c : Thread nD τ).loc main_arg1))) := by
  show StableHlo.after hostOps0 (W0 m ρ c) (Proc.devRef .tc main_v21) = _
  after_results_simp
  rfl

/-- The first layer's left weights. -/
theorem wl (c : Dev nD) : V1 m ρ c main_v23 = matAt 0 Facts₀.slices_S5x64x64_S1x64x64_0_0_0 (m ((c : Thread nD τ).loc main_arg2)) := by
  show StableHlo.after hostOps0 (W0 m ρ c) (Proc.devRef .tc main_v23) = _
  after_results_simp
  rfl

/-- The first layer's bias. -/
theorem bl (c : Dev nD) : V1 m ρ c main_v25 = vecAt 0 Facts₀.slices_S5x64_S1x64_0_0 (m ((c : Thread nD τ).loc main_arg3)) := by
  show StableHlo.after hostOps0 (W0 m ρ c) (Proc.devRef .tc main_v25) = _
  after_results_simp
  rfl

/-- The first layer's right weights. -/
theorem wr (c : Dev nD) : V1 m ρ c main_v27 = matAt 0 Facts₀.slices_S5x64x64_S1x64x64_0_0_0 (m ((c : Thread nD τ).loc main_arg4)) := by
  show StableHlo.after hostOps0 (W0 m ρ c) (Proc.devRef .tc main_v27) = _
  after_results_simp
  rfl

/-- The stretch leaves argument 2 alone. -/
theorem arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 3 alone. -/
theorem arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 4 alone. -/
theorem arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Stretch0

end
-- ==== Proof.Stretch1.lean ====
/-
  Host stretch 1 of the idealized kernel's program, read one buffer at a time: what each buffer the later launches and
  stretches use holds after the stretch, as a function of what the buffers held before it.
-/
import proofs.«110137_j62277025792168_2_alg».proof.Proof.Gen.KernelIdeal.Frame
import proofs.«110137_j62277025792168_2_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch1

open Cert.KernelIdeal Cert.KernelIdeal.Gen Cert.KernelIdeal.Net

variable (m : (ℓ : Loc nD τ sig) → Buf (Elt Ideal) ℓ) (ρ : Dev nD → PrngReg)

/-- The layer's summed messages, from the features the launch before left and the edge ends. -/
theorem msg (c : Dev nD) : V3 m ρ c main_v39 = msgOf (W2 m ρ c (Proc.devRef .tc main_v28)) (W2 m ρ c (Proc.devRef .tc main_v1)) (W2 m ρ c (Proc.devRef .tc main_v3)) := by
  show StableHlo.after hostOps1 (W2 m ρ c) (Proc.devRef .tc main_v39) = _
  after_results_simp
  rfl

/-- The layer's left weights. -/
theorem wl (c : Dev nD) : V3 m ρ c main_v41 = matAt 1 Facts₀.slices_S5x64x64_S1x64x64_1_0_0 (W2 m ρ c (Proc.devRef .tc main_arg2)) := by
  show StableHlo.after hostOps1 (W2 m ρ c) (Proc.devRef .tc main_v41) = _
  after_results_simp
  rfl

/-- The layer's bias. -/
theorem bl (c : Dev nD) : V3 m ρ c main_v43 = vecAt 1 Facts₀.slices_S5x64_S1x64_1_0 (W2 m ρ c (Proc.devRef .tc main_arg3)) := by
  show StableHlo.after hostOps1 (W2 m ρ c) (Proc.devRef .tc main_v43) = _
  after_results_simp
  rfl

/-- The layer's right weights. -/
theorem wr (c : Dev nD) : V3 m ρ c main_v45 = matAt 1 Facts₀.slices_S5x64x64_S1x64x64_1_0_0 (W2 m ρ c (Proc.devRef .tc main_arg4)) := by
  show StableHlo.after hostOps1 (W2 m ρ c) (Proc.devRef .tc main_v45) = _
  after_results_simp
  rfl

/-- The stretch leaves the source ends alone. -/
theorem src (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the destination ends alone. -/
theorem dst (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the degrees alone. -/
theorem deg (c : Dev nD) : W3 m ρ c (Proc.devRef .tc main_v9) = W2 m ρ c (Proc.devRef .tc main_v9) :=
  StableHlo.after_of_forall_not_mem (b := Proc.devRef .tc main_v9) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the features alone. -/
theorem feat (c : Dev nD) : W3 m ρ c (Proc.devRef .tc main_v28) = W2 m ρ c (Proc.devRef .tc main_v28) :=
  StableHlo.after_of_forall_not_mem (b := Proc.devRef .tc main_v28) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 2 alone. -/
theorem arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 3 alone. -/
theorem arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 4 alone. -/
theorem arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Stretch1

end
-- ==== Proof.Stretch2.lean ====
/-
  Host stretch 2 of the idealized kernel's program, read one buffer at a time: what each buffer the later launches and
  stretches use holds after the stretch, as a function of what the buffers held before it.
-/
import proofs.«110137_j62277025792168_2_alg».proof.Proof.Gen.KernelIdeal.Frame
import proofs.«110137_j62277025792168_2_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch2

open Cert.KernelIdeal Cert.KernelIdeal.Gen Cert.KernelIdeal.Net

variable (m : (ℓ : Loc nD τ sig) → Buf (Elt Ideal) ℓ) (ρ : Dev nD → PrngReg)

/-- The layer's summed messages, from the features the launch before left and the edge ends. -/
theorem msg (c : Dev nD) : V5 m ρ c main_v57 = msgOf (W4 m ρ c (Proc.devRef .tc main_v46)) (W4 m ρ c (Proc.devRef .tc main_v1)) (W4 m ρ c (Proc.devRef .tc main_v3)) := by
  show StableHlo.after hostOps2 (W4 m ρ c) (Proc.devRef .tc main_v57) = _
  after_results_simp
  rfl

/-- The layer's left weights. -/
theorem wl (c : Dev nD) : V5 m ρ c main_v59 = matAt 2 Facts₀.slices_S5x64x64_S1x64x64_2_0_0 (W4 m ρ c (Proc.devRef .tc main_arg2)) := by
  show StableHlo.after hostOps2 (W4 m ρ c) (Proc.devRef .tc main_v59) = _
  after_results_simp
  rfl

/-- The layer's bias. -/
theorem bl (c : Dev nD) : V5 m ρ c main_v61 = vecAt 2 Facts₀.slices_S5x64_S1x64_2_0 (W4 m ρ c (Proc.devRef .tc main_arg3)) := by
  show StableHlo.after hostOps2 (W4 m ρ c) (Proc.devRef .tc main_v61) = _
  after_results_simp
  rfl

/-- The layer's right weights. -/
theorem wr (c : Dev nD) : V5 m ρ c main_v63 = matAt 2 Facts₀.slices_S5x64x64_S1x64x64_2_0_0 (W4 m ρ c (Proc.devRef .tc main_arg4)) := by
  show StableHlo.after hostOps2 (W4 m ρ c) (Proc.devRef .tc main_v63) = _
  after_results_simp
  rfl

/-- The stretch leaves the source ends alone. -/
theorem src (c : Dev nD) : W5 m ρ c (Proc.devRef .tc main_v1) = W4 m ρ c (Proc.devRef .tc main_v1) :=
  StableHlo.after_of_forall_not_mem (b := Proc.devRef .tc main_v1) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the destination ends alone. -/
theorem dst (c : Dev nD) : W5 m ρ c (Proc.devRef .tc main_v3) = W4 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the degrees alone. -/
theorem deg (c : Dev nD) : W5 m ρ c (Proc.devRef .tc main_v9) = W4 m ρ c (Proc.devRef .tc main_v9) :=
  StableHlo.after_of_forall_not_mem (b := Proc.devRef .tc main_v9) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the features alone. -/
theorem feat (c : Dev nD) : W5 m ρ c (Proc.devRef .tc main_v46) = W4 m ρ c (Proc.devRef .tc main_v46) :=
  StableHlo.after_of_forall_not_mem (b := Proc.devRef .tc main_v46) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 2 alone. -/
theorem arg2 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 3 alone. -/
theorem arg3 (c : Dev nD) : W5 m ρ c (Proc.devRef .tc main_arg3) = W4 m ρ c (Proc.devRef .tc main_arg3) :=
  StableHlo.after_of_forall_not_mem (b := Proc.devRef .tc main_arg3) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 4 alone. -/
theorem arg4 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Stretch2

end
-- ==== Proof.Stretch3.lean ====
/-
  Host stretch 3 of the idealized kernel's program, read one buffer at a time: what each buffer the later launches and
  stretches use holds after the stretch, as a function of what the buffers held before it.
-/
import proofs.«110137_j62277025792168_2_alg».proof.Proof.Gen.KernelIdeal.Frame
import proofs.«110137_j62277025792168_2_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch3

open Cert.KernelIdeal Cert.KernelIdeal.Gen Cert.KernelIdeal.Net

variable (m : (ℓ : Loc nD τ sig) → Buf (Elt Ideal) ℓ) (ρ : Dev nD → PrngReg)

/-- The layer's summed messages, from the features the launch before left and the edge ends. -/
theorem msg (c : Dev nD) : V7 m ρ c main_v75 = msgOf (W6 m ρ c (Proc.devRef .tc main_v64)) (W6 m ρ c (Proc.devRef .tc main_v1)) (W6 m ρ c (Proc.devRef .tc main_v3)) := by
  show StableHlo.after hostOps3 (W6 m ρ c) (Proc.devRef .tc main_v75) = _
  after_results_simp
  rfl

/-- The layer's left weights. -/
theorem wl (c : Dev nD) : V7 m ρ c main_v77 = matAt 3 Facts₀.slices_S5x64x64_S1x64x64_3_0_0 (W6 m ρ c (Proc.devRef .tc main_arg2)) := by
  show StableHlo.after hostOps3 (W6 m ρ c) (Proc.devRef .tc main_v77) = _
  after_results_simp
  rfl

/-- The layer's bias. -/
theorem bl (c : Dev nD) : V7 m ρ c main_v79 = vecAt 3 Facts₀.slices_S5x64_S1x64_3_0 (W6 m ρ c (Proc.devRef .tc main_arg3)) := by
  show StableHlo.after hostOps3 (W6 m ρ c) (Proc.devRef .tc main_v79) = _
  after_results_simp
  rfl

/-- The layer's right weights. -/
theorem wr (c : Dev nD) : V7 m ρ c main_v81 = matAt 3 Facts₀.slices_S5x64x64_S1x64x64_3_0_0 (W6 m ρ c (Proc.devRef .tc main_arg4)) := by
  show StableHlo.after hostOps3 (W6 m ρ c) (Proc.devRef .tc main_v81) = _
  after_results_simp
  rfl

/-- The stretch leaves the source ends alone. -/
theorem src (c : Dev nD) : W7 m ρ c (Proc.devRef .tc main_v1) = W6 m ρ c (Proc.devRef .tc main_v1) :=
  StableHlo.after_of_forall_not_mem (b := Proc.devRef .tc main_v1) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the destination ends alone. -/
theorem dst (c : Dev nD) : W7 m ρ c (Proc.devRef .tc main_v3) = W6 m ρ c (Proc.devRef .tc main_v3) :=
  StableHlo.after_of_forall_not_mem (b := Proc.devRef .tc main_v3) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the degrees alone. -/
theorem deg (c : Dev nD) : W7 m ρ c (Proc.devRef .tc main_v9) = W6 m ρ c (Proc.devRef .tc main_v9) :=
  StableHlo.after_of_forall_not_mem (b := Proc.devRef .tc main_v9) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the features alone. -/
theorem feat (c : Dev nD) : W7 m ρ c (Proc.devRef .tc main_v64) = W6 m ρ c (Proc.devRef .tc main_v64) :=
  StableHlo.after_of_forall_not_mem (b := Proc.devRef .tc main_v64) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 2 alone. -/
theorem arg2 (c : Dev nD) : W7 m ρ c (Proc.devRef .tc main_arg2) = W6 m ρ c (Proc.devRef .tc main_arg2) :=
  StableHlo.after_of_forall_not_mem (b := Proc.devRef .tc main_arg2) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 3 alone. -/
theorem arg3 (c : Dev nD) : W7 m ρ c (Proc.devRef .tc main_arg3) = W6 m ρ c (Proc.devRef .tc main_arg3) :=
  StableHlo.after_of_forall_not_mem (b := Proc.devRef .tc main_arg3) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 4 alone. -/
theorem arg4 (c : Dev nD) : W7 m ρ c (Proc.devRef .tc main_arg4) = W6 m ρ c (Proc.devRef .tc main_arg4) :=
  StableHlo.after_of_forall_not_mem (b := Proc.devRef .tc main_arg4) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Stretch3

end
-- ==== Proof.Stretch4.lean ====
/-
  Host stretch 4 of the idealized kernel's program, read one buffer at a time: what each buffer the later launches and
  stretches use holds after the stretch, as a function of what the buffers held before it.
-/
import proofs.«110137_j62277025792168_2_alg».proof.Proof.Gen.KernelIdeal.Frame
import proofs.«110137_j62277025792168_2_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch4

open Cert.KernelIdeal Cert.KernelIdeal.Gen Cert.KernelIdeal.Net

variable (m : (ℓ : Loc nD τ sig) → Buf (Elt Ideal) ℓ) (ρ : Dev nD → PrngReg)

/-- The layer's summed messages, from the features the launch before left and the edge ends. -/
theorem msg (c : Dev nD) : V9 m ρ c main_v93 = msgOf (W8 m ρ c (Proc.devRef .tc main_v82)) (W8 m ρ c (Proc.devRef .tc main_v1)) (W8 m ρ c (Proc.devRef .tc main_v3)) := by
  show StableHlo.after hostOps4 (W8 m ρ c) (Proc.devRef .tc main_v93) = _
  after_results_simp
  rfl

/-- The layer's left weights. -/
theorem wl (c : Dev nD) : V9 m ρ c main_v95 = matAt 4 Facts₀.slices_S5x64x64_S1x64x64_4_0_0 (W8 m ρ c (Proc.devRef .tc main_arg2)) := by
  show StableHlo.after hostOps4 (W8 m ρ c) (Proc.devRef .tc main_v95) = _
  after_results_simp
  rfl

/-- The layer's bias. -/
theorem bl (c : Dev nD) : V9 m ρ c main_v97 = vecAt 4 Facts₀.slices_S5x64_S1x64_4_0 (W8 m ρ c (Proc.devRef .tc main_arg3)) := by
  show StableHlo.after hostOps4 (W8 m ρ c) (Proc.devRef .tc main_v97) = _
  after_results_simp
  rfl

/-- The layer's right weights. -/
theorem wr (c : Dev nD) : V9 m ρ c main_v99 = matAt 4 Facts₀.slices_S5x64x64_S1x64x64_4_0_0 (W8 m ρ c (Proc.devRef .tc main_arg4)) := by
  show StableHlo.after hostOps4 (W8 m ρ c) (Proc.devRef .tc main_v99) = _
  after_results_simp
  rfl

/-- The stretch leaves the source ends alone. -/
theorem src (c : Dev nD) : W9 m ρ c (Proc.devRef .tc main_v1) = W8 m ρ c (Proc.devRef .tc main_v1) :=
  StableHlo.after_of_forall_not_mem (b := Proc.devRef .tc main_v1) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the destination ends alone. -/
theorem dst (c : Dev nD) : W9 m ρ c (Proc.devRef .tc main_v3) = W8 m ρ c (Proc.devRef .tc main_v3) :=
  StableHlo.after_of_forall_not_mem (b := Proc.devRef .tc main_v3) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the degrees alone. -/
theorem deg (c : Dev nD) : W9 m ρ c (Proc.devRef .tc main_v9) = W8 m ρ c (Proc.devRef .tc main_v9) :=
  StableHlo.after_of_forall_not_mem (b := Proc.devRef .tc main_v9) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves the features alone. -/
theorem feat (c : Dev nD) : W9 m ρ c (Proc.devRef .tc main_v82) = W8 m ρ c (Proc.devRef .tc main_v82) :=
  StableHlo.after_of_forall_not_mem (b := Proc.devRef .tc main_v82) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 2 alone. -/
theorem arg2 (c : Dev nD) : W9 m ρ c (Proc.devRef .tc main_arg2) = W8 m ρ c (Proc.devRef .tc main_arg2) :=
  StableHlo.after_of_forall_not_mem (b := Proc.devRef .tc main_arg2) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 3 alone. -/
theorem arg3 (c : Dev nD) : W9 m ρ c (Proc.devRef .tc main_arg3) = W8 m ρ c (Proc.devRef .tc main_arg3) :=
  StableHlo.after_of_forall_not_mem (b := Proc.devRef .tc main_arg3) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 4 alone. -/
theorem arg4 (c : Dev nD) : W9 m ρ c (Proc.devRef .tc main_arg4) = W8 m ρ c (Proc.devRef .tc main_arg4) :=
  StableHlo.after_of_forall_not_mem (b := Proc.devRef .tc main_arg4) _ _ (List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Stretch4

end
-- ==== Proof.Stretch5.lean ====
/-
  Host stretch 5 of the idealized kernel's program, read one buffer at a time: what each buffer the later launches and
  stretches use holds after the stretch, as a function of what the buffers held before it.
-/
import proofs.«110137_j62277025792168_2_alg».proof.Proof.Gen.KernelIdeal.Frame
import proofs.«110137_j62277025792168_2_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch5

open Cert.KernelIdeal Cert.KernelIdeal.Gen Cert.KernelIdeal.Net

variable (m : (ℓ : Loc nD τ sig) → Buf (Elt Ideal) ℓ) (ρ : Dev nD → PrngReg)

/-- The last layer's features read as 20000 rows of 320. -/
theorem flat (c : Dev nD) : V11 m ρ c main_v101 = shapeCast S20000x320 (W10 m ρ c (Proc.devRef .tc main_v100)) Facts₀.shapeCasts_S100000x64_S20000x320 := by
  show StableHlo.after hostOps5 (W10 m ρ c) (Proc.devRef .tc main_v101) = _
  after_results_simp
  rfl

/-- The stretch leaves argument 5 alone. -/
theorem arg5 (c : Dev nD) : W11 m ρ c (Proc.devRef .tc main_arg5) = W10 m ρ c (Proc.devRef .tc main_arg5) :=
  StableHlo.after_of_forall_not_mem (b := Proc.devRef .tc main_arg5) _ _ (List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The stretch leaves argument 6 alone. -/
theorem arg6 (c : Dev nD) : W11 m ρ c (Proc.devRef .tc main_arg6) = W10 m ρ c (Proc.devRef .tc main_arg6) :=
  StableHlo.after_of_forall_not_mem (b := Proc.devRef .tc main_arg6) _ _ (List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Stretch5

end
-- ==== Proof.Chain.lean ====
/-
  The idealized kernel's result buffer after the run holds the network function of the arguments.

  Walk the program's segments in order.  After the first host stretch the edge ends, the clamped degrees, the features
  and the first layer's messages and weights are the network's own terms of the arguments.  Each launch leaves the layer
  function of the arrays it found in its result array and touches no other buffer; each later host stretch forms the next
  layer's messages and weight slices from the features just written, the edge ends and the stacked weights, and leaves
  those alone.  So after launch k the features are the network's after k layers; the last stretch reads them as 20000
  rows of 320 and the last launch applies the closing layer.
-/
import proofs.«110137_j62277025792168_2_alg».proof.Proof.Gen.KernelIdeal.Frame
import proofs.«110137_j62277025792168_2_alg».proof.Proof.Net
import proofs.«110137_j62277025792168_2_alg».proof.Proof.Region0
import proofs.«110137_j62277025792168_2_alg».proof.Proof.Region1
import proofs.«110137_j62277025792168_2_alg».proof.Proof.Region2
import proofs.«110137_j62277025792168_2_alg».proof.Proof.Region3
import proofs.«110137_j62277025792168_2_alg».proof.Proof.Region4
import proofs.«110137_j62277025792168_2_alg».proof.Proof.Region5
import proofs.«110137_j62277025792168_2_alg».proof.Proof.Stretch0
import proofs.«110137_j62277025792168_2_alg».proof.Proof.Stretch1
import proofs.«110137_j62277025792168_2_alg».proof.Proof.Stretch2
import proofs.«110137_j62277025792168_2_alg».proof.Proof.Stretch3
import proofs.«110137_j62277025792168_2_alg».proof.Proof.Stretch4
import proofs.«110137_j62277025792168_2_alg».proof.Proof.Stretch5

set_option maxRecDepth 16384

noncomputable section

open Idealize.ShloMosaic Idealize.ShloMosaic.TcCoe Idealize.SL.Sem

namespace Cert.KernelIdeal.Chain

open Cert.KernelIdeal Cert.KernelIdeal.Gen Cert.KernelIdeal.Net

variable (m : (ℓ : Loc nD τ sig) → Buf (Elt Ideal) ℓ) (ρ : Dev nD → PrngReg)

/-! ## After the first host stretch -/

theorem src1 (c : Dev nD) : W1 m ρ c (Proc.devRef .tc main_v1) = srcOf (m ((c : Thread nD τ).loc main_arg1)) := Stretch0.src m ρ c
theorem dst1 (c : Dev nD) : W1 m ρ c (Proc.devRef .tc main_v3) = dstOf (m ((c : Thread nD τ).loc main_arg1)) := Stretch0.dst m ρ c
theorem deg1 (c : Dev nD) : V1 m ρ c main_v9 = degCol (dstOf (m ((c : Thread nD τ).loc main_arg1))) := Stretch0.deg m ρ c
theorem arg2_1 (c : Dev nD) : W1 m ρ c (Proc.devRef .tc main_arg2) = (m ((c : Thread nD τ).loc main_arg2)) := (Stretch0.arg2 m ρ c).trans rfl
theorem arg3_1 (c : Dev nD) : W1 m ρ c (Proc.devRef .tc main_arg3) = (m ((c : Thread nD τ).loc main_arg3)) := (Stretch0.arg3 m ρ c).trans rfl
theorem arg4_1 (c : Dev nD) : W1 m ρ c (Proc.devRef .tc main_arg4) = (m ((c : Thread nD τ).loc main_arg4)) := (Stretch0.arg4 m ρ c).trans rfl

/-! ## After launch 0 -/

theorem src2 (c : Dev nD) : W2 m ρ c (Proc.devRef .tc main_v1) = srcOf (m ((c : Thread nD τ).loc main_arg1)) := (W2_of_ne m ρ c main_v1 (by decide)).trans (src1 m ρ c)
theorem dst2 (c : Dev nD) : W2 m ρ c (Proc.devRef .tc main_v3) = dstOf (m ((c : Thread nD τ).loc main_arg1)) := (W2_of_ne m ρ c main_v3 (by decide)).trans (dst1 m ρ c)
/-- The degree column is an input of the launch: no write-back touches it. -/
theorem deg2 (c : Dev nD) : W2 m ρ c (Proc.devRef .tc main_v9) = degCol (dstOf (m ((c : Thread nD τ).loc main_arg1))) :=
  (show W2 m ρ c (Proc.devRef .tc main_v9) = V1 m ρ c main_v9 from
    (W2_arr m ρ c 2).trans (((dat0 (V1 m ρ) c).arrAt_in 2 rfl _).trans (A_eq0 (V1 m ρ) c 2))).trans (deg1 m ρ c)
theorem arg2_2 (c : Dev nD) : W2 m ρ c (Proc.devRef .tc main_arg2) = (m ((c : Thread nD τ).loc main_arg2)) := (W2_of_ne m ρ c main_arg2 (by decide)).trans (arg2_1 m ρ c)
theorem arg3_2 (c : Dev nD) : W2 m ρ c (Proc.devRef .tc main_arg3) = (m ((c : Thread nD τ).loc main_arg3)) := (W2_of_ne m ρ c main_arg3 (by decide)).trans (arg3_1 m ρ c)
theorem arg4_2 (c : Dev nD) : W2 m ρ c (Proc.devRef .tc main_arg4) = (m ((c : Thread nD τ).loc main_arg4)) := (W2_of_ne m ρ c main_arg4 (by decide)).trans (arg4_1 m ρ c)

/-- The features after 1 layer. -/
theorem feat2 (c : Dev nD) : W2 m ρ c (Proc.devRef .tc main_v28) = h1 (m ((c : Thread nD τ).loc main_arg0)) (m ((c : Thread nD τ).loc main_arg1)) (m ((c : Thread nD τ).loc main_arg2)) (m ((c : Thread nD τ).loc main_arg3)) (m ((c : Thread nD τ).loc main_arg4)) := by
  refine (show W2 m ρ c (Proc.devRef .tc main_v28) = _ from W2_arr m ρ c 6).trans ?_
  rw [Layer0.final]
  unfold Layer0.out
  rw [Stretch0.msg, Stretch0.feat, deg1, Stretch0.wl, Stretch0.wr, Stretch0.bl]
  rfl

/-! ## After host stretch 1 -/

theorem src3 (c : Dev nD) : W3 m ρ c (Proc.devRef .tc main_v1) = srcOf (m ((c : Thread nD τ).loc main_arg1)) := (Stretch1.src m ρ c).trans (src2 m ρ c)
theorem dst3 (c : Dev nD) : W3 m ρ c (Proc.devRef .tc main_v3) = dstOf (m ((c : Thread nD τ).loc main_arg1)) := (Stretch1.dst m ρ c).trans (dst2 m ρ c)
theorem deg3 (c : Dev nD) : V3 m ρ c main_v9 = degCol (dstOf (m ((c : Thread nD τ).loc main_arg1))) := (Stretch1.deg m ρ c).trans (deg2 m ρ c)
theorem arg2_3 (c : Dev nD) : W3 m ρ c (Proc.devRef .tc main_arg2) = (m ((c : Thread nD τ).loc main_arg2)) := (Stretch1.arg2 m ρ c).trans (arg2_2 m ρ c)
theorem arg3_3 (c : Dev nD) : W3 m ρ c (Proc.devRef .tc main_arg3) = (m ((c : Thread nD τ).loc main_arg3)) := (Stretch1.arg3 m ρ c).trans (arg3_2 m ρ c)
theorem arg4_3 (c : Dev nD) : W3 m ρ c (Proc.devRef .tc main_arg4) = (m ((c : Thread nD τ).loc main_arg4)) := (Stretch1.arg4 m ρ c).trans (arg4_2 m ρ c)
theorem feat3 (c : Dev nD) : V3 m ρ c main_v28 = h1 (m ((c : Thread nD τ).loc main_arg0)) (m ((c : Thread nD τ).loc main_arg1)) (m ((c : Thread nD τ).loc main_arg2)) (m ((c : Thread nD τ).loc main_arg3)) (m ((c : Thread nD τ).loc main_arg4)) := (Stretch1.feat m ρ c).trans (feat2 m ρ c)
theorem msg3 (c : Dev nD) : V3 m ρ c main_v39 = msgOf (h1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  rw [Stretch1.msg, feat2, src2, dst2]
theorem wl3 (c : Dev nD) : V3 m ρ c main_v41 = matAt 1 Facts₀.slices_S5x64x64_S1x64x64_1_0_0 (m ((c : Thread nD τ).loc main_arg2)) := by
  rw [Stretch1.wl, arg2_2]
theorem bl3 (c : Dev nD) : V3 m ρ c main_v43 = vecAt 1 Facts₀.slices_S5x64_S1x64_1_0 (m ((c : Thread nD τ).loc main_arg3)) := by
  rw [Stretch1.bl, arg3_2]
theorem wr3 (c : Dev nD) : V3 m ρ c main_v45 = matAt 1 Facts₀.slices_S5x64x64_S1x64x64_1_0_0 (m ((c : Thread nD τ).loc main_arg4)) := by
  rw [Stretch1.wr, arg4_2]

/-! ## After launch 1 -/

theorem src4 (c : Dev nD) : W4 m ρ c (Proc.devRef .tc main_v1) = srcOf (m ((c : Thread nD τ).loc main_arg1)) := (W4_of_ne m ρ c main_v1 (by decide)).trans (src3 m ρ c)
theorem dst4 (c : Dev nD) : W4 m ρ c (Proc.devRef .tc main_v3) = dstOf (m ((c : Thread nD τ).loc main_arg1)) := (W4_of_ne m ρ c main_v3 (by decide)).trans (dst3 m ρ c)
/-- The degree column is an input of the launch: no write-back touches it. -/
theorem deg4 (c : Dev nD) : W4 m ρ c (Proc.devRef .tc main_v9) = degCol (dstOf (m ((c : Thread nD τ).loc main_arg1))) :=
  (show W4 m ρ c (Proc.devRef .tc main_v9) = V3 m ρ c main_v9 from
    (W4_arr m ρ c 2).trans (((dat1 (V3 m ρ) c).arrAt_in 2 rfl _).trans (A_eq1 (V3 m ρ) c 2))).trans (deg3 m ρ c)
theorem arg2_4 (c : Dev nD) : W4 m ρ c (Proc.devRef .tc main_arg2) = (m ((c : Thread nD τ).loc main_arg2)) := (W4_of_ne m ρ c main_arg2 (by decide)).trans (arg2_3 m ρ c)
theorem arg3_4 (c : Dev nD) : W4 m ρ c (Proc.devRef .tc main_arg3) = (m ((c : Thread nD τ).loc main_arg3)) := (W4_of_ne m ρ c main_arg3 (by decide)).trans (arg3_3 m ρ c)
theorem arg4_4 (c : Dev nD) : W4 m ρ c (Proc.devRef .tc main_arg4) = (m ((c : Thread nD τ).loc main_arg4)) := (W4_of_ne m ρ c main_arg4 (by decide)).trans (arg4_3 m ρ c)

/-- The features after 2 layers. -/
theorem feat4 (c : Dev nD) : W4 m ρ c (Proc.devRef .tc main_v46) = h2 (m ((c : Thread nD τ).loc main_arg0)) (m ((c : Thread nD τ).loc main_arg1)) (m ((c : Thread nD τ).loc main_arg2)) (m ((c : Thread nD τ).loc main_arg3)) (m ((c : Thread nD τ).loc main_arg4)) := by
  refine (show W4 m ρ c (Proc.devRef .tc main_v46) = _ from W4_arr m ρ c 6).trans ?_
  rw [Layer1.final]
  unfold Layer1.out
  rw [msg3, feat3, deg3, wl3, wr3, bl3]
  rfl

/-! ## After host stretch 2 -/

theorem src5 (c : Dev nD) : W5 m ρ c (Proc.devRef .tc main_v1) = srcOf (m ((c : Thread nD τ).loc main_arg1)) := (Stretch2.src m ρ c).trans (src4 m ρ c)
theorem dst5 (c : Dev nD) : W5 m ρ c (Proc.devRef .tc main_v3) = dstOf (m ((c : Thread nD τ).loc main_arg1)) := (Stretch2.dst m ρ c).trans (dst4 m ρ c)
theorem deg5 (c : Dev nD) : V5 m ρ c main_v9 = degCol (dstOf (m ((c : Thread nD τ).loc main_arg1))) := (Stretch2.deg m ρ c).trans (deg4 m ρ c)
theorem arg2_5 (c : Dev nD) : W5 m ρ c (Proc.devRef .tc main_arg2) = (m ((c : Thread nD τ).loc main_arg2)) := (Stretch2.arg2 m ρ c).trans (arg2_4 m ρ c)
theorem arg3_5 (c : Dev nD) : W5 m ρ c (Proc.devRef .tc main_arg3) = (m ((c : Thread nD τ).loc main_arg3)) := (Stretch2.arg3 m ρ c).trans (arg3_4 m ρ c)
theorem arg4_5 (c : Dev nD) : W5 m ρ c (Proc.devRef .tc main_arg4) = (m ((c : Thread nD τ).loc main_arg4)) := (Stretch2.arg4 m ρ c).trans (arg4_4 m ρ c)
theorem feat5 (c : Dev nD) : V5 m ρ c main_v46 = h2 (m ((c : Thread nD τ).loc main_arg0)) (m ((c : Thread nD τ).loc main_arg1)) (m ((c : Thread nD τ).loc main_arg2)) (m ((c : Thread nD τ).loc main_arg3)) (m ((c : Thread nD τ).loc main_arg4)) := (Stretch2.feat m ρ c).trans (feat4 m ρ c)
theorem msg5 (c : Dev nD) : V5 m ρ c main_v57 = msgOf (h2 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  rw [Stretch2.msg, feat4, src4, dst4]
theorem wl5 (c : Dev nD) : V5 m ρ c main_v59 = matAt 2 Facts₀.slices_S5x64x64_S1x64x64_2_0_0 (m ((c : Thread nD τ).loc main_arg2)) := by
  rw [Stretch2.wl, arg2_4]
theorem bl5 (c : Dev nD) : V5 m ρ c main_v61 = vecAt 2 Facts₀.slices_S5x64_S1x64_2_0 (m ((c : Thread nD τ).loc main_arg3)) := by
  rw [Stretch2.bl, arg3_4]
theorem wr5 (c : Dev nD) : V5 m ρ c main_v63 = matAt 2 Facts₀.slices_S5x64x64_S1x64x64_2_0_0 (m ((c : Thread nD τ).loc main_arg4)) := by
  rw [Stretch2.wr, arg4_4]

/-! ## After launch 2 -/

theorem src6 (c : Dev nD) : W6 m ρ c (Proc.devRef .tc main_v1) = srcOf (m ((c : Thread nD τ).loc main_arg1)) := (W6_of_ne m ρ c main_v1 (by decide)).trans (src5 m ρ c)
theorem dst6 (c : Dev nD) : W6 m ρ c (Proc.devRef .tc main_v3) = dstOf (m ((c : Thread nD τ).loc main_arg1)) := (W6_of_ne m ρ c main_v3 (by decide)).trans (dst5 m ρ c)
/-- The degree column is an input of the launch: no write-back touches it. -/
theorem deg6 (c : Dev nD) : W6 m ρ c (Proc.devRef .tc main_v9) = degCol (dstOf (m ((c : Thread nD τ).loc main_arg1))) :=
  (show W6 m ρ c (Proc.devRef .tc main_v9) = V5 m ρ c main_v9 from
    (W6_arr m ρ c 2).trans (((dat2 (V5 m ρ) c).arrAt_in 2 rfl _).trans (A_eq2 (V5 m ρ) c 2))).trans (deg5 m ρ c)
theorem arg2_6 (c : Dev nD) : W6 m ρ c (Proc.devRef .tc main_arg2) = (m ((c : Thread nD τ).loc main_arg2)) := (W6_of_ne m ρ c main_arg2 (by decide)).trans (arg2_5 m ρ c)
theorem arg3_6 (c : Dev nD) : W6 m ρ c (Proc.devRef .tc main_arg3) = (m ((c : Thread nD τ).loc main_arg3)) := (W6_of_ne m ρ c main_arg3 (by decide)).trans (arg3_5 m ρ c)
theorem arg4_6 (c : Dev nD) : W6 m ρ c (Proc.devRef .tc main_arg4) = (m ((c : Thread nD τ).loc main_arg4)) := (W6_of_ne m ρ c main_arg4 (by decide)).trans (arg4_5 m ρ c)

/-- The features after 3 layers. -/
theorem feat6 (c : Dev nD) : W6 m ρ c (Proc.devRef .tc main_v64) = h3 (m ((c : Thread nD τ).loc main_arg0)) (m ((c : Thread nD τ).loc main_arg1)) (m ((c : Thread nD τ).loc main_arg2)) (m ((c : Thread nD τ).loc main_arg3)) (m ((c : Thread nD τ).loc main_arg4)) := by
  refine (show W6 m ρ c (Proc.devRef .tc main_v64) = _ from W6_arr m ρ c 6).trans ?_
  rw [Layer2.final]
  unfold Layer2.out
  rw [msg5, feat5, deg5, wl5, wr5, bl5]
  rfl

/-! ## After host stretch 3 -/

theorem src7 (c : Dev nD) : W7 m ρ c (Proc.devRef .tc main_v1) = srcOf (m ((c : Thread nD τ).loc main_arg1)) := (Stretch3.src m ρ c).trans (src6 m ρ c)
theorem dst7 (c : Dev nD) : W7 m ρ c (Proc.devRef .tc main_v3) = dstOf (m ((c : Thread nD τ).loc main_arg1)) := (Stretch3.dst m ρ c).trans (dst6 m ρ c)
theorem deg7 (c : Dev nD) : V7 m ρ c main_v9 = degCol (dstOf (m ((c : Thread nD τ).loc main_arg1))) := (Stretch3.deg m ρ c).trans (deg6 m ρ c)
theorem arg2_7 (c : Dev nD) : W7 m ρ c (Proc.devRef .tc main_arg2) = (m ((c : Thread nD τ).loc main_arg2)) := (Stretch3.arg2 m ρ c).trans (arg2_6 m ρ c)
theorem arg3_7 (c : Dev nD) : W7 m ρ c (Proc.devRef .tc main_arg3) = (m ((c : Thread nD τ).loc main_arg3)) := (Stretch3.arg3 m ρ c).trans (arg3_6 m ρ c)
theorem arg4_7 (c : Dev nD) : W7 m ρ c (Proc.devRef .tc main_arg4) = (m ((c : Thread nD τ).loc main_arg4)) := (Stretch3.arg4 m ρ c).trans (arg4_6 m ρ c)
theorem feat7 (c : Dev nD) : V7 m ρ c main_v64 = h3 (m ((c : Thread nD τ).loc main_arg0)) (m ((c : Thread nD τ).loc main_arg1)) (m ((c : Thread nD τ).loc main_arg2)) (m ((c : Thread nD τ).loc main_arg3)) (m ((c : Thread nD τ).loc main_arg4)) := (Stretch3.feat m ρ c).trans (feat6 m ρ c)
theorem msg7 (c : Dev nD) : V7 m ρ c main_v75 = msgOf (h3 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  rw [Stretch3.msg, feat6, src6, dst6]
theorem wl7 (c : Dev nD) : V7 m ρ c main_v77 = matAt 3 Facts₀.slices_S5x64x64_S1x64x64_3_0_0 (m ((c : Thread nD τ).loc main_arg2)) := by
  rw [Stretch3.wl, arg2_6]
theorem bl7 (c : Dev nD) : V7 m ρ c main_v79 = vecAt 3 Facts₀.slices_S5x64_S1x64_3_0 (m ((c : Thread nD τ).loc main_arg3)) := by
  rw [Stretch3.bl, arg3_6]
theorem wr7 (c : Dev nD) : V7 m ρ c main_v81 = matAt 3 Facts₀.slices_S5x64x64_S1x64x64_3_0_0 (m ((c : Thread nD τ).loc main_arg4)) := by
  rw [Stretch3.wr, arg4_6]

/-! ## After launch 3 -/

theorem src8 (c : Dev nD) : W8 m ρ c (Proc.devRef .tc main_v1) = srcOf (m ((c : Thread nD τ).loc main_arg1)) := (W8_of_ne m ρ c main_v1 (by decide)).trans (src7 m ρ c)
theorem dst8 (c : Dev nD) : W8 m ρ c (Proc.devRef .tc main_v3) = dstOf (m ((c : Thread nD τ).loc main_arg1)) := (W8_of_ne m ρ c main_v3 (by decide)).trans (dst7 m ρ c)
/-- The degree column is an input of the launch: no write-back touches it. -/
theorem deg8 (c : Dev nD) : W8 m ρ c (Proc.devRef .tc main_v9) = degCol (dstOf (m ((c : Thread nD τ).loc main_arg1))) :=
  (show W8 m ρ c (Proc.devRef .tc main_v9) = V7 m ρ c main_v9 from
    (W8_arr m ρ c 2).trans (((dat3 (V7 m ρ) c).arrAt_in 2 rfl _).trans (A_eq3 (V7 m ρ) c 2))).trans (deg7 m ρ c)
theorem arg2_8 (c : Dev nD) : W8 m ρ c (Proc.devRef .tc main_arg2) = (m ((c : Thread nD τ).loc main_arg2)) := (W8_of_ne m ρ c main_arg2 (by decide)).trans (arg2_7 m ρ c)
theorem arg3_8 (c : Dev nD) : W8 m ρ c (Proc.devRef .tc main_arg3) = (m ((c : Thread nD τ).loc main_arg3)) := (W8_of_ne m ρ c main_arg3 (by decide)).trans (arg3_7 m ρ c)
theorem arg4_8 (c : Dev nD) : W8 m ρ c (Proc.devRef .tc main_arg4) = (m ((c : Thread nD τ).loc main_arg4)) := (W8_of_ne m ρ c main_arg4 (by decide)).trans (arg4_7 m ρ c)

/-- The features after 4 layers. -/
theorem feat8 (c : Dev nD) : W8 m ρ c (Proc.devRef .tc main_v82) = h4 (m ((c : Thread nD τ).loc main_arg0)) (m ((c : Thread nD τ).loc main_arg1)) (m ((c : Thread nD τ).loc main_arg2)) (m ((c : Thread nD τ).loc main_arg3)) (m ((c : Thread nD τ).loc main_arg4)) := by
  refine (show W8 m ρ c (Proc.devRef .tc main_v82) = _ from W8_arr m ρ c 6).trans ?_
  rw [Layer3.final]
  unfold Layer3.out
  rw [msg7, feat7, deg7, wl7, wr7, bl7]
  rfl

/-! ## After host stretch 4 -/

theorem src9 (c : Dev nD) : W9 m ρ c (Proc.devRef .tc main_v1) = srcOf (m ((c : Thread nD τ).loc main_arg1)) := (Stretch4.src m ρ c).trans (src8 m ρ c)
theorem dst9 (c : Dev nD) : W9 m ρ c (Proc.devRef .tc main_v3) = dstOf (m ((c : Thread nD τ).loc main_arg1)) := (Stretch4.dst m ρ c).trans (dst8 m ρ c)
theorem deg9 (c : Dev nD) : V9 m ρ c main_v9 = degCol (dstOf (m ((c : Thread nD τ).loc main_arg1))) := (Stretch4.deg m ρ c).trans (deg8 m ρ c)
theorem arg2_9 (c : Dev nD) : W9 m ρ c (Proc.devRef .tc main_arg2) = (m ((c : Thread nD τ).loc main_arg2)) := (Stretch4.arg2 m ρ c).trans (arg2_8 m ρ c)
theorem arg3_9 (c : Dev nD) : W9 m ρ c (Proc.devRef .tc main_arg3) = (m ((c : Thread nD τ).loc main_arg3)) := (Stretch4.arg3 m ρ c).trans (arg3_8 m ρ c)
theorem arg4_9 (c : Dev nD) : W9 m ρ c (Proc.devRef .tc main_arg4) = (m ((c : Thread nD τ).loc main_arg4)) := (Stretch4.arg4 m ρ c).trans (arg4_8 m ρ c)
theorem feat9 (c : Dev nD) : V9 m ρ c main_v82 = h4 (m ((c : Thread nD τ).loc main_arg0)) (m ((c : Thread nD τ).loc main_arg1)) (m ((c : Thread nD τ).loc main_arg2)) (m ((c : Thread nD τ).loc main_arg3)) (m ((c : Thread nD τ).loc main_arg4)) := (Stretch4.feat m ρ c).trans (feat8 m ρ c)
theorem msg9 (c : Dev nD) : V9 m ρ c main_v93 = msgOf (h4 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  rw [Stretch4.msg, feat8, src8, dst8]
theorem wl9 (c : Dev nD) : V9 m ρ c main_v95 = matAt 4 Facts₀.slices_S5x64x64_S1x64x64_4_0_0 (m ((c : Thread nD τ).loc main_arg2)) := by
  rw [Stretch4.wl, arg2_8]
theorem bl9 (c : Dev nD) : V9 m ρ c main_v97 = vecAt 4 Facts₀.slices_S5x64_S1x64_4_0 (m ((c : Thread nD τ).loc main_arg3)) := by
  rw [Stretch4.bl, arg3_8]
theorem wr9 (c : Dev nD) : V9 m ρ c main_v99 = matAt 4 Facts₀.slices_S5x64x64_S1x64x64_4_0_0 (m ((c : Thread nD τ).loc main_arg4)) := by
  rw [Stretch4.wr, arg4_8]

/-! ## After launch 4 -/

theorem src10 (c : Dev nD) : W10 m ρ c (Proc.devRef .tc main_v1) = srcOf (m ((c : Thread nD τ).loc main_arg1)) := (W10_of_ne m ρ c main_v1 (by decide)).trans (src9 m ρ c)
theorem dst10 (c : Dev nD) : W10 m ρ c (Proc.devRef .tc main_v3) = dstOf (m ((c : Thread nD τ).loc main_arg1)) := (W10_of_ne m ρ c main_v3 (by decide)).trans (dst9 m ρ c)
/-- The degree column is an input of the launch: no write-back touches it. -/
theorem deg10 (c : Dev nD) : W10 m ρ c (Proc.devRef .tc main_v9) = degCol (dstOf (m ((c : Thread nD τ).loc main_arg1))) :=
  (show W10 m ρ c (Proc.devRef .tc main_v9) = V9 m ρ c main_v9 from
    (W10_arr m ρ c 2).trans (((dat4 (V9 m ρ) c).arrAt_in 2 rfl _).trans (A_eq4 (V9 m ρ) c 2))).trans (deg9 m ρ c)
theorem arg2_10 (c : Dev nD) : W10 m ρ c (Proc.devRef .tc main_arg2) = (m ((c : Thread nD τ).loc main_arg2)) := (W10_of_ne m ρ c main_arg2 (by decide)).trans (arg2_9 m ρ c)
theorem arg3_10 (c : Dev nD) : W10 m ρ c (Proc.devRef .tc main_arg3) = (m ((c : Thread nD τ).loc main_arg3)) := (W10_of_ne m ρ c main_arg3 (by decide)).trans (arg3_9 m ρ c)
theorem arg4_10 (c : Dev nD) : W10 m ρ c (Proc.devRef .tc main_arg4) = (m ((c : Thread nD τ).loc main_arg4)) := (W10_of_ne m ρ c main_arg4 (by decide)).trans (arg4_9 m ρ c)

/-- The features after 5 layers. -/
theorem feat10 (c : Dev nD) : W10 m ρ c (Proc.devRef .tc main_v100) = h5 (m ((c : Thread nD τ).loc main_arg0)) (m ((c : Thread nD τ).loc main_arg1)) (m ((c : Thread nD τ).loc main_arg2)) (m ((c : Thread nD τ).loc main_arg3)) (m ((c : Thread nD τ).loc main_arg4)) := by
  refine (show W10 m ρ c (Proc.devRef .tc main_v100) = _ from W10_arr m ρ c 6).trans ?_
  rw [Layer4.final]
  unfold Layer4.out
  rw [msg9, feat9, deg9, wl9, wr9, bl9]
  rfl

/-! ## After the last host stretch, and the closing launch -/

theorem flat11 (c : Dev nD) : V11 m ρ c main_v101 = shapeCast S20000x320 (h5 (m ((c : Thread nD τ).loc main_arg0)) (m ((c : Thread nD τ).loc main_arg1)) (m ((c : Thread nD τ).loc main_arg2)) (m ((c : Thread nD τ).loc main_arg3)) (m ((c : Thread nD τ).loc main_arg4))) Facts₀.shapeCasts_S100000x64_S20000x320 := by
  rw [Stretch5.flat, feat10]
theorem arg5_11 (c : Dev nD) : V11 m ρ c main_arg5 = (m ((c : Thread nD τ).loc main_arg5)) :=
  (show W12 m ρ c (Proc.devRef .tc main_arg5) = V11 m ρ c main_arg5 from
    (W12_arr m ρ c 1).trans (((dat5 (V11 m ρ) c).arrAt_in 1 rfl _).trans (A_eq5 (V11 m ρ) c 1))).symm.trans (W12_main_arg5 m ρ c)
theorem arg6_11 (c : Dev nD) : V11 m ρ c main_arg6 = (m ((c : Thread nD τ).loc main_arg6)) :=
  (show W12 m ρ c (Proc.devRef .tc main_arg6) = V11 m ρ c main_arg6 from
    (W12_arr m ρ c 2).trans (((dat5 (V11 m ρ) c).arrAt_in 2 rfl _).trans (A_eq5 (V11 m ρ) c 2))).symm.trans (W12_main_arg6 m ρ c)

/-- The result buffer after the run holds the network function of the arguments. -/
theorem result (c : Dev nD) : W12 m ρ c (Proc.devRef .tc main_v102) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (show W12 m ρ c (Proc.devRef .tc main_v102) = _ from W12_arr m ρ c 3).trans ?_
  rw [Closing.final]
  unfold Closing.out
  rw [flat11, arg5_11, arg6_11]
  rfl

end Cert.KernelIdeal.Chain

end
-- ==== Proof.RefNet.lean ====
/-
  The reference computes the network function.

  The reference is one straight line of host operations.  Its layer k divides the summed messages by the degree column
  spread over the 64 columns, multiplies by the left weights, adds the bias spread over the rows, adds the features times
  the right weights, and clamps below at zero: the layer function of its own summed messages, features, degrees and
  weight slices.  Those are the network's: the same gather and scatter-add along the same edge ends, the same slices.  Its
  last lines spell the logistic function as 1 / (1 + exp(−x)).
-/
import proofs.«110137_j62277025792168_2_alg».proof.Proof.Gen.ReferenceIdeal.Read
import proofs.«110137_j62277025792168_2_alg».proof.Proof.Net

set_option maxRecDepth 16384

noncomputable section

open Idealize.ShloMosaic

namespace Cert.ReferenceIdeal.RefNet

open Cert.ReferenceIdeal.Read Cert.KernelIdeal.Net Cert.Sage

variable (x0 : (⟨Cert.ReferenceIdeal.S100000x64, .f32⟩ : BufTy).Contents (Elt Ideal))
  (x1 : (⟨Cert.ReferenceIdeal.S2x1600000, .i32⟩ : BufTy).Contents (Elt Ideal))
  (x2 : (⟨Cert.ReferenceIdeal.S5x64x64, .f32⟩ : BufTy).Contents (Elt Ideal))
  (x3 : (⟨Cert.ReferenceIdeal.S5x64, .f32⟩ : BufTy).Contents (Elt Ideal))
  (x4 : (⟨Cert.ReferenceIdeal.S5x64x64, .f32⟩ : BufTy).Contents (Elt Ideal))
  (x5 : (⟨Cert.ReferenceIdeal.S320x1, .f32⟩ : BufTy).Contents (Elt Ideal))
  (x6 : (⟨Cert.ReferenceIdeal.S1, .f32⟩ : BufTy).Contents (Elt Ideal))

/-! ## Layer 1 -/

theorem msg0 : val_main_v19 (F := Ideal) x0 x1 = msgOf x0 (srcOf x1) (dstOf x1) := rfl
theorem deg0 : val_main_v25 (F := Ideal) x1 = degCol (dstOf x1) := rfl
theorem wl0 : val_main_v5 (F := Ideal) x2 = matAt 0 Cert.KernelIdeal.Facts₀.slices_S5x64x64_S1x64x64_0_0_0 x2 := rfl
theorem bl0 : val_main_v7 (F := Ideal) x3 = vecAt 0 Cert.KernelIdeal.Facts₀.slices_S5x64_S1x64_0_0 x3 := rfl
theorem wr0 : val_main_v9 (F := Ideal) x4 = matAt 0 Cert.KernelIdeal.Facts₀.slices_S5x64x64_S1x64x64_0_0_0 x4 := rfl

/-- The reference's features after layer 1 are the network's. -/
theorem layer0 : val_main_v34 (F := Ideal) x0 x1 x2 x3 x4 = h1 x0 x1 x2 x3 x4 := by
  have e := host_eq_combine (M := 100000) (K := 64) (N := 64) (val_main_v19 (F := Ideal) x0 x1) x0
    (val_main_v25 (F := Ideal) x1) (val_main_v5 (F := Ideal) x2) (val_main_v9 (F := Ideal) x4) (val_main_v7 (F := Ideal) x3)
    Cert.ReferenceIdeal.Facts₀.bcast_S100000x1_S100000x64_0_1 Cert.ReferenceIdeal.Facts₀.bcast_S64_S1x64_1
    Cert.ReferenceIdeal.Facts₀.bcast_S1x64_S100000x64_0_1 Cert.ReferenceIdeal.Facts₀.bcast_S_S100000x64
  refine (show val_main_v34 (F := Ideal) x0 x1 x2 x3 x4 = _ from e).trans ?_
  rw [msg0, deg0, wl0, bl0, wr0]
  rfl

/-! ## Layer 2 -/

theorem msg1 : val_main_v50 (F := Ideal) x0 x1 x2 x3 x4 = msgOf (val_main_v34 (F := Ideal) x0 x1 x2 x3 x4) (srcOf x1) (dstOf x1) := rfl
theorem deg1 : val_main_v56 (F := Ideal) x1 = degCol (dstOf x1) := rfl
theorem wl1 : val_main_v36 (F := Ideal) x2 = matAt 1 Cert.KernelIdeal.Facts₀.slices_S5x64x64_S1x64x64_1_0_0 x2 := rfl
theorem bl1 : val_main_v38 (F := Ideal) x3 = vecAt 1 Cert.KernelIdeal.Facts₀.slices_S5x64_S1x64_1_0 x3 := rfl
theorem wr1 : val_main_v40 (F := Ideal) x4 = matAt 1 Cert.KernelIdeal.Facts₀.slices_S5x64x64_S1x64x64_1_0_0 x4 := rfl

/-- The reference's features after layer 2 are the network's. -/
theorem layer1 : val_main_v65 (F := Ideal) x0 x1 x2 x3 x4 = h2 x0 x1 x2 x3 x4 := by
  have e := host_eq_combine (M := 100000) (K := 64) (N := 64) (val_main_v50 (F := Ideal) x0 x1 x2 x3 x4) (val_main_v34 (F := Ideal) x0 x1 x2 x3 x4)
    (val_main_v56 (F := Ideal) x1) (val_main_v36 (F := Ideal) x2) (val_main_v40 (F := Ideal) x4) (val_main_v38 (F := Ideal) x3)
    Cert.ReferenceIdeal.Facts₀.bcast_S100000x1_S100000x64_0_1 Cert.ReferenceIdeal.Facts₀.bcast_S64_S1x64_1
    Cert.ReferenceIdeal.Facts₀.bcast_S1x64_S100000x64_0_1 Cert.ReferenceIdeal.Facts₀.bcast_S_S100000x64
  refine (show val_main_v65 (F := Ideal) x0 x1 x2 x3 x4 = _ from e).trans ?_
  rw [msg1, deg1, wl1, bl1, wr1, layer0]
  rfl

/-! ## Layer 3 -/

theorem msg2 : val_main_v81 (F := Ideal) x0 x1 x2 x3 x4 = msgOf (val_main_v65 (F := Ideal) x0 x1 x2 x3 x4) (srcOf x1) (dstOf x1) := rfl
theorem deg2 : val_main_v87 (F := Ideal) x1 = degCol (dstOf x1) := rfl
theorem wl2 : val_main_v67 (F := Ideal) x2 = matAt 2 Cert.KernelIdeal.Facts₀.slices_S5x64x64_S1x64x64_2_0_0 x2 := rfl
theorem bl2 : val_main_v69 (F := Ideal) x3 = vecAt 2 Cert.KernelIdeal.Facts₀.slices_S5x64_S1x64_2_0 x3 := rfl
theorem wr2 : val_main_v71 (F := Ideal) x4 = matAt 2 Cert.KernelIdeal.Facts₀.slices_S5x64x64_S1x64x64_2_0_0 x4 := rfl

/-- The reference's features after layer 3 are the network's. -/
theorem layer2 : val_main_v96 (F := Ideal) x0 x1 x2 x3 x4 = h3 x0 x1 x2 x3 x4 := by
  have e := host_eq_combine (M := 100000) (K := 64) (N := 64) (val_main_v81 (F := Ideal) x0 x1 x2 x3 x4) (val_main_v65 (F := Ideal) x0 x1 x2 x3 x4)
    (val_main_v87 (F := Ideal) x1) (val_main_v67 (F := Ideal) x2) (val_main_v71 (F := Ideal) x4) (val_main_v69 (F := Ideal) x3)
    Cert.ReferenceIdeal.Facts₀.bcast_S100000x1_S100000x64_0_1 Cert.ReferenceIdeal.Facts₀.bcast_S64_S1x64_1
    Cert.ReferenceIdeal.Facts₀.bcast_S1x64_S100000x64_0_1 Cert.ReferenceIdeal.Facts₀.bcast_S_S100000x64
  refine (show val_main_v96 (F := Ideal) x0 x1 x2 x3 x4 = _ from e).trans ?_
  rw [msg2, deg2, wl2, bl2, wr2, layer1]
  rfl

/-! ## Layer 4 -/

theorem msg3 : val_main_v112 (F := Ideal) x0 x1 x2 x3 x4 = msgOf (val_main_v96 (F := Ideal) x0 x1 x2 x3 x4) (srcOf x1) (dstOf x1) := rfl
theorem deg3 : val_main_v118 (F := Ideal) x1 = degCol (dstOf x1) := rfl
theorem wl3 : val_main_v98 (F := Ideal) x2 = matAt 3 Cert.KernelIdeal.Facts₀.slices_S5x64x64_S1x64x64_3_0_0 x2 := rfl
theorem bl3 : val_main_v100 (F := Ideal) x3 = vecAt 3 Cert.KernelIdeal.Facts₀.slices_S5x64_S1x64_3_0 x3 := rfl
theorem wr3 : val_main_v102 (F := Ideal) x4 = matAt 3 Cert.KernelIdeal.Facts₀.slices_S5x64x64_S1x64x64_3_0_0 x4 := rfl

/-- The reference's features after layer 4 are the network's. -/
theorem layer3 : val_main_v127 (F := Ideal) x0 x1 x2 x3 x4 = h4 x0 x1 x2 x3 x4 := by
  have e := host_eq_combine (M := 100000) (K := 64) (N := 64) (val_main_v112 (F := Ideal) x0 x1 x2 x3 x4) (val_main_v96 (F := Ideal) x0 x1 x2 x3 x4)
    (val_main_v118 (F := Ideal) x1) (val_main_v98 (F := Ideal) x2) (val_main_v102 (F := Ideal) x4) (val_main_v100 (F := Ideal) x3)
    Cert.ReferenceIdeal.Facts₀.bcast_S100000x1_S100000x64_0_1 Cert.ReferenceIdeal.Facts₀.bcast_S64_S1x64_1
    Cert.ReferenceIdeal.Facts₀.bcast_S1x64_S100000x64_0_1 Cert.ReferenceIdeal.Facts₀.bcast_S_S100000x64
  refine (show val_main_v127 (F := Ideal) x0 x1 x2 x3 x4 = _ from e).trans ?_
  rw [msg3, deg3, wl3, bl3, wr3, layer2]
  rfl

/-! ## Layer 5 -/

theorem msg4 : val_main_v143 (F := Ideal) x0 x1 x2 x3 x4 = msgOf (val_main_v127 (F := Ideal) x0 x1 x2 x3 x4) (srcOf x1) (dstOf x1) := rfl
theorem deg4 : val_main_v149 (F := Ideal) x1 = degCol (dstOf x1) := rfl
theorem wl4 : val_main_v129 (F := Ideal) x2 = matAt 4 Cert.KernelIdeal.Facts₀.slices_S5x64x64_S1x64x64_4_0_0 x2 := rfl
theorem bl4 : val_main_v131 (F := Ideal) x3 = vecAt 4 Cert.KernelIdeal.Facts₀.slices_S5x64_S1x64_4_0 x3 := rfl
theorem wr4 : val_main_v133 (F := Ideal) x4 = matAt 4 Cert.KernelIdeal.Facts₀.slices_S5x64x64_S1x64x64_4_0_0 x4 := rfl

/-- The reference's features after layer 5 are the network's. -/
theorem layer4 : val_main_v158 (F := Ideal) x0 x1 x2 x3 x4 = h5 x0 x1 x2 x3 x4 := by
  have e := host_eq_combine (M := 100000) (K := 64) (N := 64) (val_main_v143 (F := Ideal) x0 x1 x2 x3 x4) (val_main_v127 (F := Ideal) x0 x1 x2 x3 x4)
    (val_main_v149 (F := Ideal) x1) (val_main_v129 (F := Ideal) x2) (val_main_v133 (F := Ideal) x4) (val_main_v131 (F := Ideal) x3)
    Cert.ReferenceIdeal.Facts₀.bcast_S100000x1_S100000x64_0_1 Cert.ReferenceIdeal.Facts₀.bcast_S64_S1x64_1
    Cert.ReferenceIdeal.Facts₀.bcast_S1x64_S100000x64_0_1 Cert.ReferenceIdeal.Facts₀.bcast_S_S100000x64
  refine (show val_main_v158 (F := Ideal) x0 x1 x2 x3 x4 = _ from e).trans ?_
  rw [msg4, deg4, wl4, bl4, wr4, layer3]
  rfl

/-! ## The closing layer -/

theorem flat : val_main_v159 (F := Ideal) x0 x1 x2 x3 x4
    = shapeCast Cert.KernelIdeal.S20000x320 (val_main_v158 (F := Ideal) x0 x1 x2 x3 x4) Cert.KernelIdeal.Facts₀.shapeCasts_S100000x64_S20000x320 := rfl

/-- The reference's result is the network's. -/
theorem result : val_main_v169 (F := Ideal) x0 x1 x2 x3 x4 x5 x6 = net x0 x1 x2 x3 x4 x5 x6 := by
  have e := host_eq_closing (M := 20000) (K := 320) (N := 1) (val_main_v159 (F := Ideal) x0 x1 x2 x3 x4) x5 x6
    Cert.ReferenceIdeal.Facts₀.bcast_S1_S1x1_1 Cert.ReferenceIdeal.Facts₀.bcast_S1x1_S20000x1_0_1 Cert.ReferenceIdeal.Facts₀.bcast_S_S20000x1
  refine (show val_main_v169 (F := Ideal) x0 x1 x2 x3 x4 x5 x6 = _ from e).trans ?_
  rw [flat, layer4]
  rfl

end Cert.ReferenceIdeal.RefNet

end
-- ==== Proof.lean ====
/-
  The claims.  The three programs run to the end with their arguments unchanged: the kernel's two printed forms by their
  generated frames, the reference by its generated run.  The idealization rewrote no operation.  At the exact values the
  idealized kernel's result buffer ends holding the network function of the arguments (five mean-aggregation layers, each
  launch computing its layer block of rows by block of rows, then the closing layer), and the reference's result is that
  same function of its own arguments, which agree with the kernel's.
-/
import proofs.«110137_j62277025792168_2_alg».proof.Defs
import proofs.«110137_j62277025792168_2_alg».proof.Proof.Gen.Kernel
import proofs.«110137_j62277025792168_2_alg».proof.Proof.Gen.Kernel.Skeleton
import proofs.«110137_j62277025792168_2_alg».proof.Proof.Gen.Kernel.Launch
import proofs.«110137_j62277025792168_2_alg».proof.Proof.Gen.Kernel.Points
import proofs.«110137_j62277025792168_2_alg».proof.Proof.Gen.Kernel.Frame
import proofs.«110137_j62277025792168_2_alg».proof.Proof.Gen.KernelIdeal
import proofs.«110137_j62277025792168_2_alg».proof.Proof.Gen.KernelIdeal.Skeleton
import proofs.«110137_j62277025792168_2_alg».proof.Proof.Gen.KernelIdeal.Launch
import proofs.«110137_j62277025792168_2_alg».proof.Proof.Gen.KernelIdeal.Points
import proofs.«110137_j62277025792168_2_alg».proof.Proof.Gen.KernelIdeal.Frame
import proofs.«110137_j62277025792168_2_alg».proof.Proof.Gen.ReferenceIdeal
import proofs.«110137_j62277025792168_2_alg».proof.Proof.Gen.ReferenceIdeal.Run
import proofs.«110137_j62277025792168_2_alg».proof.Proof.Gen.ReferenceIdeal.Read
import proofs.«110137_j62277025792168_2_alg».proof.Proof.Gen.Pre_finite_inputs
import proofs.«110137_j62277025792168_2_alg».proof.Proof.KRun
import proofs.«110137_j62277025792168_2_alg».proof.Proof.Chain
import proofs.«110137_j62277025792168_2_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network function of the (agreeing) arguments in their result. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result m ρ c), (h c).2⟩) (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v169_eq, Cert.ReferenceIdeal.RefNet.result, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
